-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512x128 : Shape := ⟨2, ![512, 128]⟩
abbrev S1x1 : Shape := ⟨2, ![1, 1]⟩
abbrev S8x128 : Shape := ⟨2, ![8, 128]⟩
abbrev S8x512 : Shape := ⟨2, ![8, 512]⟩
abbrev S8x8 : Shape := ⟨2, ![8, 8]⟩
abbrev S8x8x512 : Shape := ⟨3, ![8, 8, 512]⟩
abbrev S8x1x512 : Shape := ⟨3, ![8, 1, 512]⟩
abbrev S8x8x1 : Shape := ⟨3, ![8, 8, 1]⟩
abbrev S8x8x8 : Shape := ⟨3, ![8, 8, 8]⟩
abbrev S8x1x8 : Shape := ⟨3, ![8, 1, 8]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S512x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S512x128, .f32⟩
  | .local _ .vmem, ⟨3, _⟩ => ⟨S1x1, .f32⟩
  | .local _ .vmem, ⟨4, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x128_S8x128_0_0 : ∀ a, (![0, 0] : Fin 2 → Nat) a + S8x128.size a ≤ S8x128.size a
  h_S8x128 : 0 < S8x128.numel
  inb_S512x128_S512x128_0_0 : ∀ a, (![0, 0] : Fin 2 → Nat) a + S512x128.size a ≤ S512x128.size a
  h_S512x128 : 0 < S512x128.numel
  iota_S8x8x512_d2_w32 : S8x8x512.Iotas .tc 32 [2]
  iota_S8x8x512_d1_w32 : S8x8x512.Iotas .tc 32 [1]
  natLt_1_32 : 1 < 32
  shapeCasts_S8x512_S8x1x512 : S8x512.ShapeCasts S8x1x512
  shapeCasts_S8x8_S8x8x1 : S8x8.ShapeCasts S8x8x1
  broadcasts_S8x1x512_S8x8x512 : S8x1x512.Broadcasts S8x8x512
  broadcasts_S8x8x1_S8x8x512 : S8x8x1.Broadcasts S8x8x512
  reduces_S8x8x512_S8x8 : S8x8x512.Reduces [2] S8x8
  iota_S8x8x8_d2_w32 : S8x8x8.Iotas .tc 32 [2]
  iota_S8x8x8_d1_w32 : S8x8x8.Iotas .tc 32 [1]
  shapeCasts_S8x8_S8x1x8 : S8x8.ShapeCasts S8x1x8
  broadcasts_S8x1x8_S8x8x8 : S8x1x8.Broadcasts S8x8x8
  broadcasts_S8x8x1_S8x8x8 : S8x8x1.Broadcasts S8x8x8
  reduces_S8x8x8_S8x8 : S8x8x8.Reduces [2] S8x8
  reduces_S8x8_S8 : S8x8.Reduces [1] S8
  shapeCasts_S8_S8x1 : S8.ShapeCasts S8x1
  reduces_S8x1_S1 : S8x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S8x128_S512x128_S8x512_1_1_0_0_n_n_wf : DotDims.WF S8x128 S512x128 S8x512 [1] [1] [0] [0] [] []
  dot_S8x128_S8x128_S8x8_1_1_0_0_n_n_wf : DotDims.WF S8x128 S8x128 S8x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S512x128.size a
  hwx0_0 : ∀ i : grid0.Coords, EltTy.bits .f32 = 32 ∨ (Rect.block (s := S512x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf
def dot_S8x128_S8x128_S8x8_1_1_0_0_n_n : DotDims S8x128 S8x128 S8x8 where
  lhsContracting := [1]
  rhsContracting := [1]
  lhsNonContracting := [0]
  rhsNonContracting := [0]
  lhsBatch := []
  rhsBatch := []
  wf := dot_S8x128_S8x128_S8x8_1_1_0_0_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128 : Shape := ⟨2, ![512, 128]⟩
abbrev S128x512 : Shape := ⟨2, ![128, 512]⟩
abbrev S512x512 : Shape := ⟨2, ![512, 512]⟩
abbrev S512x1x512 : Shape := ⟨3, ![512, 1, 512]⟩
abbrev S512x512x1 : Shape := ⟨3, ![512, 512, 1]⟩
abbrev S512x512x512 : Shape := ⟨3, ![512, 512, 512]⟩
abbrev S_ : Shape := ⟨0, ![]⟩
abbrev S1x512x512 : Shape := ⟨3, ![1, 512, 512]⟩
abbrev S64x8x128 : Shape := ⟨3, ![64, 8, 128]⟩
abbrev S64x8x8 : Shape := ⟨3, ![64, 8, 8]⟩
abbrev S64x8x1x8 : Shape := ⟨4, ![64, 8, 1, 8]⟩
abbrev S64x8x8x1 : Shape := ⟨4, ![64, 8, 8, 1]⟩
abbrev S64x8x8x8 : Shape := ⟨4, ![64, 8, 8, 8]⟩
abbrev S8x8 : Shape := ⟨2, ![8, 8]⟩
abbrev S1x1x8x8 : Shape := ⟨4, ![1, 1, 8, 8]⟩
abbrev S64x8x64x8 : Shape := ⟨4, ![64, 8, 64, 8]⟩
abbrev S64 : Shape := ⟨1, ![64]⟩
abbrev S64x1 : Shape := ⟨2, ![64, 1]⟩
abbrev S64x2 : Shape := ⟨2, ![64, 2]⟩

abbrev nBuf : Space → Nat
  | .hbm => 118
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S128x512, .f32⟩
  | .hbm, ⟨2, _⟩ => ⟨S512x512, .f32⟩
  | .hbm, ⟨3, _⟩ => ⟨S512x1x512, .f32⟩
  | .hbm, ⟨4, _⟩ => ⟨S512x512x1, .f32⟩
  | .hbm, ⟨5, _⟩ => ⟨S512x512x512, .f32⟩
  | .hbm, ⟨6, _⟩ => ⟨S512x512x512, .f32⟩
  | .hbm, ⟨7, _⟩ => ⟨S512x512x512, .f32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512x512, .f32⟩
  | .hbm, ⟨19, _⟩ => ⟨S_, .f32⟩
  | .hbm, ⟨20, _⟩ => ⟨S512x512x512, .f32⟩
  | .hbm, ⟨21, _⟩ => ⟨S512x512x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512x512x512, .f32⟩
  | .hbm, ⟨26, _⟩ => ⟨S512x512x512, .f32⟩
  | .hbm, ⟨27, _⟩ => ⟨S_, .f32⟩
  | .hbm, ⟨28, _⟩ => ⟨S512x512x512, .f32⟩
  | .hbm, ⟨29, _⟩ => ⟨S512x512x512, .f32⟩
  | .hbm, ⟨30, _⟩ => ⟨S512x512x512, .f32⟩
  | .hbm, ⟨31, _⟩ => ⟨S_, .f32⟩
  | .hbm, ⟨32, _⟩ => ⟨S512x512x512, .f32⟩
  | .hbm, ⟨33, _⟩ => ⟨S512x512x512, .f32⟩
  | .hbm, ⟨34, _⟩ => ⟨S_, .f32⟩
  | .hbm, ⟨35, _⟩ => ⟨S512x512x512, .f32⟩
  | .hbm, ⟨36, _⟩ => ⟨S512x512x512, .f32⟩
  | .hbm, ⟨37, _⟩ => ⟨S1x512x512, .f32⟩
  | .hbm, ⟨38, _⟩ => ⟨S512x512x512, .f32⟩
  | .hbm, ⟨39, _⟩ => ⟨S512x512x512, .f32⟩
  | .hbm, ⟨40, _⟩ => ⟨S_, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S64x8x128, .f32⟩
  | .hbm, ⟨46, _⟩ => ⟨S64x8x8, .f32⟩
  | .hbm, ⟨47, _⟩ => ⟨S64x8x1x8, .f32⟩
  | .hbm, ⟨48, _⟩ => ⟨S64x8x8x1, .f32⟩
  | .hbm, ⟨49, _⟩ => ⟨S64x8x8x8, .f32⟩
  | .hbm, ⟨50, _⟩ => ⟨S64x8x8x8, .f32⟩
  | .hbm, ⟨51, _⟩ => ⟨S64x8x8x8, .f32⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S8x8, .f32⟩
  | .hbm, ⟨59, _⟩ => ⟨S_, .f32⟩
  | .hbm, ⟨60, _⟩ => ⟨S8x8, .f32⟩
  | .hbm, ⟨61, _⟩ => ⟨S8x8, .f32⟩
  | .hbm, ⟨62, _⟩ => ⟨S64x8x8x8, .f32⟩
  | .hbm, ⟨63, _⟩ => ⟨S_, .f32⟩
  | .hbm, ⟨64, _⟩ => ⟨S64x8x8x8, .f32⟩
  | .hbm, ⟨65, _⟩ => ⟨S64x8x8x8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S64x8x8x8, .f32⟩
  | .hbm, ⟨70, _⟩ => ⟨S64x8x8x8, .f32⟩
  | .hbm, ⟨71, _⟩ => ⟨S_, .f32⟩
  | .hbm, ⟨72, _⟩ => ⟨S64x8x8x8, .f32⟩
  | .hbm, ⟨73, _⟩ => ⟨S64x8x8x8, .f32⟩
  | .hbm, ⟨74, _⟩ => ⟨S64x8x8x8, .f32⟩
  | .hbm, ⟨75, _⟩ => ⟨S_, .f32⟩
  | .hbm, ⟨76, _⟩ => ⟨S64x8x8x8, .f32⟩
  | .hbm, ⟨77, _⟩ => ⟨S64x8x8x8, .f32⟩
  | .hbm, ⟨78, _⟩ => ⟨S_, .f32⟩
  | .hbm, ⟨79, _⟩ => ⟨S64x8x8x8, .f32⟩
  | .hbm, ⟨80, _⟩ => ⟨S64x8x8x8, .f32⟩
  | .hbm, ⟨81, _⟩ => ⟨S1x1x8x8, .f32⟩
  | .hbm, ⟨82, _⟩ => ⟨S64x8x8x8, .f32⟩
  | .hbm, ⟨83, _⟩ => ⟨S64x8x8x8, .f32⟩
  | .hbm, ⟨84, _⟩ => ⟨S_, .f32⟩
  | .hbm, ⟨85, _⟩ => ⟨S64x8x8, .f32⟩
  | .hbm, ⟨86, _⟩ => ⟨S_, .f32⟩
  | .hbm, ⟨87, _⟩ => ⟨S64x8x8, .f32⟩
  | .hbm, ⟨88, _⟩ => ⟨S64x8x8, .f32⟩
  | .hbm, ⟨89, _⟩ => ⟨S64x8x64x8, .f32⟩
  | .hbm, ⟨90, _⟩ => ⟨S64, .i32⟩
  | .hbm, ⟨91, _⟩ => ⟨S_, .i32⟩
  | .hbm, ⟨92, _⟩ => ⟨S64, .i32⟩
  | .hbm, ⟨93, _⟩ => ⟨S64, .i1⟩
  | .hbm, ⟨94, _⟩ => ⟨S_, .i32⟩
  | .hbm, ⟨95, _⟩ => ⟨S64, .i32⟩
  | .hbm, ⟨96, _⟩ => ⟨S64, .i32⟩
  | .hbm, ⟨97, _⟩ => ⟨S64, .i32⟩
  | .hbm, ⟨98, _⟩ => ⟨S_, .i32⟩
  | .hbm, ⟨99, _⟩ => ⟨S64, .i32⟩
  | .hbm, ⟨100, _⟩ => ⟨S64, .i1⟩
  | .hbm, ⟨101, _⟩ => ⟨S_, .i32⟩
  | .hbm, ⟨102, _⟩ => ⟨S64, .i32⟩
  | .hbm, ⟨103, _⟩ => ⟨S64, .i32⟩
  | .hbm, ⟨104, _⟩ => ⟨S64, .i32⟩
  | .hbm, ⟨105, _⟩ => ⟨S64x1, .i32⟩
  | .hbm, ⟨106, _⟩ => ⟨S64x1, .i32⟩
  | .hbm, ⟨107, _⟩ => ⟨S64x2, .i32⟩
  | .hbm, ⟨108, _⟩ => ⟨S64x8x8, .f32⟩
  | .hbm, ⟨109, _⟩ => ⟨S64x8x8, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_cst_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_c_17 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_18 : Ref sig .tc := ⟨.hbm, 98, rfl⟩
abbrev main_v67 : Ref sig .tc := ⟨.hbm, 99, rfl⟩
abbrev main_v68 : Ref sig .tc := ⟨.hbm, 100, rfl⟩
abbrev main_c_19 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_20 : Ref sig .tc := ⟨.hbm, 110, rfl⟩
abbrev main_v77 : Ref sig .tc := ⟨.hbm, 111, rfl⟩
abbrev main_cst_21 : Ref sig .tc := ⟨.hbm, 112, rfl⟩
abbrev main_v78 : Ref sig .tc := ⟨.hbm, 113, rfl⟩
abbrev main_cst_22 : Ref sig .tc := ⟨.hbm, 114, rfl⟩
abbrev main_v79 : Ref sig .tc := ⟨.hbm, 115, rfl⟩
abbrev main_cst_23 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  transposes_S512x128_S128x512_1_0 : S512x128.Transposes [1, 0] S128x512
  bcast_S512x512_S512x1x512_0_2 : S512x512.BroadcastsInDim S512x1x512 (![0, 2] : Fin 2 → Fin S512x1x512.rank)
  bcast_S512x512_S512x512x1_0_1 : S512x512.BroadcastsInDim S512x512x1 (![0, 1] : Fin 2 → Fin S512x512x1.rank)
  bcast_S512x1x512_S512x512x512_0_1_2 : S512x1x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  bcast_S_S512x512 : S_.BroadcastsInDim S512x512 (![] : Fin 0 → Fin S512x512.rank)
  bcast_S_S512x512x512 : S_.BroadcastsInDim S512x512x512 (![] : Fin 0 → Fin S512x512x512.rank)
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  shapeCasts_S512x128_S64x8x128 : S512x128.ShapeCasts S64x8x128
  bcast_S64x8x8_S64x8x1x8_0_1_3 : S64x8x8.BroadcastsInDim S64x8x1x8 (![0, 1, 3] : Fin 3 → Fin S64x8x1x8.rank)
  bcast_S64x8x8_S64x8x8x1_0_1_2 : S64x8x8.BroadcastsInDim S64x8x8x1 (![0, 1, 2] : Fin 3 → Fin S64x8x8x1.rank)
  bcast_S64x8x1x8_S64x8x8x8_0_1_2_3 : S64x8x1x8.BroadcastsInDim S64x8x8x8 (![0, 1, 2, 3] : Fin 4 → Fin S64x8x8x8.rank)
  bcast_S64x8x8x1_S64x8x8x8_0_1_2_3 : S64x8x8x1.BroadcastsInDim S64x8x8x8 (![0, 1, 2, 3] : Fin 4 → Fin S64x8x8x8.rank)
  bcast_S_S8x8 : S_.BroadcastsInDim S8x8 (![] : Fin 0 → Fin S8x8.rank)
  bcast_S_S64x8x8x8 : S_.BroadcastsInDim S64x8x8x8 (![] : Fin 0 → Fin S64x8x8x8.rank)
  bcast_S8x8_S1x1x8x8_2_3 : S8x8.BroadcastsInDim S1x1x8x8 (![2, 3] : Fin 2 → Fin S1x1x8x8.rank)
  bcast_S1x1x8x8_S64x8x8x8_0_1_2_3 : S1x1x8x8.BroadcastsInDim S64x8x8x8 (![0, 1, 2, 3] : Fin 4 → Fin S64x8x8x8.rank)
  reducesTo_S64x8x8x8_S64x8x8_d3 : S64x8x8x8.ReducesTo [3] S64x8x8
  bcast_S_S64x8x8 : S_.BroadcastsInDim S64x8x8 (![] : Fin 0 → Fin S64x8x8.rank)
  shapeCasts_S512x512_S64x8x64x8 : S512x512.ShapeCasts S64x8x64x8
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  reducesTo_S64x8x8_S_d0_1_2 : S64x8x8.ReducesTo [0, 1, 2] S_
  dot_S512x128_S128x512_S512x512_1_0_0_1_n_n_wf : DotDims.WF S512x128 S128x512 S512x512 [1] [0] [0] [1] [] []
  dot_S64x8x128_S64x8x128_S64x8x8_2_2_1_1_0_0_wf : DotDims.WF S64x8x128 S64x8x128 S64x8x8 [2] [2] [1] [1] [0] [0]
  gather_S64x8x64x8_S64x2_S64x8x8_12_02_n_n_02_1_1818_wf : GatherDims.WF S64x8x64x8 S64x2 S64x8x8 [1, 2] [0, 2] [] [0, 2] [] 1 ![1, 8, 1, 8]

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S64x8x128_S64x8x128_S64x8x8_2_2_1_1_0_0 : DotDims S64x8x128 S64x8x128 S64x8x8 where
  lhsContracting := [2]
  rhsContracting := [2]
  lhsNonContracting := [1]
  rhsNonContracting := [1]
  lhsBatch := [0]
  rhsBatch := [0]
  wf := dot_S64x8x128_S64x8x128_S64x8x8_2_2_1_1_0_0_wf
def gather_S64x8x64x8_S64x2_S64x8x8_12_02_n_n_02_1_1818 : GatherDims S64x8x64x8 S64x2 S64x8x8 where
  offsetDims := [1, 2]
  collapsedSliceDims := [0, 2]
  operandBatchingDims := []
  startIndicesBatchingDims := []
  startIndexMap := [0, 2]
  indexVectorDim := 1
  sliceSizes := ![1, 8, 1, 8]
  wf := gather_S64x8x64x8_S64x2_S64x8x8_12_02_n_n_02_1_1818_wf

class Facts : Prop extends Facts₀ where

variable [Facts]
-- ==== Proof.KnBase.lean ====
/-
  What the frame of the kernel's program is stated over.

  The region is entered with every buffer at its launch contents (no host line precedes it), and
  is followed by seven scalar host lines. The kernel has three windows: the class's 8 rows and the
  whole matrix, both read from the one input array, and the [1,1] result; and one [1,1] scratch
  buffer that carries the running total from grid point to grid point. The body's one branch is
  taken at the first grid point only, where it clears the scratch.
-/
import proofs.«176333_j50379966382605_2_alg».proof.Proof.Gen.Kernel.Launch
import proofs.«176333_j50379966382605_2_alg».proof.Proof.Gen.Kernel.Skeleton
import proofs.«176333_j50379966382605_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch contents. -/
abbrev V0 (c : Dev nD) : Valuation τ sig (Elt F) := fun b => m (c, b)
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch: the first grid point -/

/-- The condition of the body's branch, from the grid coordinate: the class index is zero. -/
abbrev isFirst (i : grid0.Coords) : Prop :=
  (Scalar.cmpi .ne (Scalar.extui (Scalar.cmpi .eq (BitVec.ofNat 32 (i 0).val) 0#32)) 0#32) = 1#1

/-- It holds at the first grid point and at no other. -/
theorem isFirst_iff : ∀ t : Fin cfg0.N, isFirst (grid0.coords t) ↔ t.val = 0 :=
  (by decide +kernel : ∀ t : Fin grid0.N, isFirst (grid0.coords t) ↔ t.val = 0)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch that carries the running total. -/
abbrev scM : Memref sig .tc .vmem S1x1 .f32 := Memref.whole cc0_scratch0
/-- The views through which the result's staging buffer and the scratch are read. -/
abbrev VO : View sig .tc .vmem S1x1 .f32 := (Memref.whole cc0_stg2_0 : Memref sig .tc .vmem S1x1 .f32).view
abbrev VS : View sig .tc .vmem S1x1 .f32 := scM.view

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KnRunFirst.lean ====
/-
  The body at the first grid point: it clears the scratch, adds the class's sum to it, and copies
  it to the result's staging buffer. What each written buffer ends with is found as the list of
  the stores made into it.
-/
import proofs.«176333_j50379966382605_2_alg».proof.Proof.KnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point, on whole memrefs — the two inputs' at their contents, the result's and
    the scratch at anything — the body runs to the continuation holding the inputs' as they were
    and the result's buffer and the scratch with the listed stores written. -/
noncomputable def runFirst (c : Dev nD) (i : grid0.Coords)
    (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__ap_kernel i arg1 harg1 arg2 harg2 arg3 harg3 arg4 harg4) K } := by
  refine ⟨?_, ?_, fun E K => ?run⟩
  case run =>
    simp only [cc0__ap_kernel_eq_skeleton]; unfold cc0__ap_kernel_skel
    simp only [k0_part1_eq_skeleton]; unfold k0_part1_skel
    unfold owns
    iintro ⟨⟨%f1, %hf1, H1⟩, ⟨%f2, %hf2, H2⟩, ⟨%d3, %f3, -, H3⟩, ⟨%d4, %f4, -, H4⟩, Hk⟩
    obtain rfl := harg1.eq_unread hf1; obtain rfl := harg2.eq_unread hf2
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    iexists _; iexact H4

end Cert.Kernel.Hand

end
-- ==== Proof.KnRunLater.lean ====
/-
  The body at every later grid point: it adds the class's sum to what the scratch holds and copies
  the new total to the result's staging buffer.
-/
import proofs.«176333_j50379966382605_2_alg».proof.Proof.KnRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later grid point, on whole memrefs — the two inputs' at their contents, the result's at
    anything, the scratch at the total `xs` the point before left — the body runs to the
    continuation holding the inputs' as they were and the result's buffer and the scratch with the
    listed stores written. -/
noncomputable def runLater (c : Dev nD) (i : grid0.Coords)
    (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ owns (c : Thread nD τ) arg4 fullShare xs
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__ap_kernel i arg1 harg1 arg2 harg2 arg3 harg3 arg4 harg4) K } := by
  refine ⟨?_, ?_, fun E K => ?run⟩
  case run =>
    simp only [cc0__ap_kernel_eq_skeleton]; unfold cc0__ap_kernel_skel
    simp only [k0_part1_eq_skeleton]; unfold k0_part1_skel
    unfold owns
    iintro ⟨⟨%f1, %hf1, H1⟩, ⟨%f2, %hf2, H2⟩, ⟨%d3, %f3, -, H3⟩, ⟨%f4, %hf4, H4⟩, Hk⟩
    obtain rfl := harg1.eq_unread hf1; obtain rfl := harg2.eq_unread hf2; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    iexists _; iexact H4

end Cert.Kernel.Hand

end
-- ==== Proof.KnFrame.lean ====
/-
  What the result's staging buffer and the scratch hold after the body at each grid point, the
  proof data of the pipeline, and the body's obligation at every point.

  After the first point both hold the first class's sum added to the zero the body stored; after
  each later point both hold the class's sum added to what the scratch held before. The two input
  windows read one array: each holds half of it.
-/
import proofs.«176333_j50379966382605_2_alg».proof.Proof.KnRunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the stores read back -/

/-- At the first point the stores into the result's staging buffer cover it. -/
theorem coverO_first (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) (y : S1x1.Idx) :
    ∃ pc ∈ (runFirst c i arg1 harg1 arg2 harg2 arg3 harg3 arg4 harg4 hc x1 x2).1, y ∈ pc.1.set :=
  View.cover_of_tiledL (runFirst c i arg1 harg1 arg2 harg2 arg3 harg3 arg4 harg4 hc x1 x2).1 S1x1.size (by sl_kernel_rfl) y

/-- What the first point leaves in the result's staging buffer. -/
def outFirst (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) : Vec F S1x1 .f32 :=
  VO.read (Elt F) (VO.writes (Elt F) VO.junk (runFirst c i arg1 harg1 arg2 harg2 arg3 harg3 arg4 harg4 hc x1 x2).1)

/-- At the first point the stores into the scratch cover it. -/
theorem coverS_first (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) (y : S1x1.Idx) :
    ∃ pc ∈ (runFirst c i arg1 harg1 arg2 harg2 arg3 harg3 arg4 harg4 hc x1 x2).2.1, y ∈ pc.1.set :=
  View.cover_of_tiledL (runFirst c i arg1 harg1 arg2 harg2 arg3 harg3 arg4 harg4 hc x1 x2).2.1 S1x1.size (by sl_kernel_rfl) y

/-- What the first point leaves in the scratch. -/
def scrFirst (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) : Vec F S1x1 .f32 :=
  VS.read (Elt F) (VS.writes (Elt F) VS.junk (runFirst c i arg1 harg1 arg2 harg2 arg3 harg3 arg4 harg4 hc x1 x2).2.1)

/-- At a later point the stores into the result's staging buffer cover it. -/
theorem coverO_later (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) (y : S1x1.Idx) :
    ∃ pc ∈ (runLater c i arg1 harg1 arg2 harg2 arg3 harg3 arg4 harg4 hc x1 x2 xs).1, y ∈ pc.1.set :=
  View.cover_of_tiledL (runLater c i arg1 harg1 arg2 harg2 arg3 harg3 arg4 harg4 hc x1 x2 xs).1 S1x1.size (by sl_kernel_rfl) y

/-- What a later point leaves in the result's staging buffer. -/
def outLater (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) : Vec F S1x1 .f32 :=
  VO.read (Elt F) (VO.writes (Elt F) VO.junk (runLater c i arg1 harg1 arg2 harg2 arg3 harg3 arg4 harg4 hc x1 x2 xs).1)

/-- At a later point the stores into the scratch cover it. -/
theorem coverS_later (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) (y : S1x1.Idx) :
    ∃ pc ∈ (runLater c i arg1 harg1 arg2 harg2 arg3 harg3 arg4 harg4 hc x1 x2 xs).2.1, y ∈ pc.1.set :=
  View.cover_of_tiledL (runLater c i arg1 harg1 arg2 harg2 arg3 harg3 arg4 harg4 hc x1 x2 xs).2.1 S1x1.size (by sl_kernel_rfl) y

/-- What a later point leaves in the scratch. -/
def scrLater (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) : Vec F S1x1 .f32 :=
  VS.read (Elt F) (VS.writes (Elt F) VS.junk (runLater c i arg1 harg1 arg2 harg2 arg3 harg3 arg4 harg4 hc x1 x2 xs).2.1)

/-! ## The running total, point by point -/

/-- What the result's staging buffer (first component) and the scratch (second) hold after the body
    at position `n`: the first point's contents, then each later point's over what the scratch held. -/
def outsAt (c : Dev nD) : (n : ℕ) → n < cfg0.N → Vec F S1x1 .f32 × Vec F S1x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr rfl) (iblk m c 0 ⟨0, hn⟩) (iblk m c 1 ⟨0, hn⟩),
              scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr rfl) (iblk m c 0 ⟨0, hn⟩) (iblk m c 1 ⟨0, hn⟩))
  | n + 1, hn =>
    (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => Nat.succ_ne_zero n ((isFirst_iff ⟨n + 1, hn⟩).mp h)) (iblk m c 0 ⟨n + 1, hn⟩) (iblk m c 1 ⟨n + 1, hn⟩) (outsAt c n (Nat.lt_of_succ_lt hn)).2,
     scrLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => Nat.succ_ne_zero n ((isFirst_iff ⟨n + 1, hn⟩).mp h)) (iblk m c 0 ⟨n + 1, hn⟩) (iblk m c 1 ⟨n + 1, hn⟩) (outsAt c n (Nat.lt_of_succ_lt hn)).2)

/-- `outsAt` at the first point. -/
theorem outsAt_first (c : Dev nD) (t : Fin cfg0.N) (h0 : t.val = 0) :
    outsAt m c t.val t.isLt = (outFirst c (grid0.coords t) (ms0 t) (hs0 t) (ms1 t) (hs1 t) (ms2 t) (hs2 t) scM (Memref.isWhole_whole _) ((isFirst_iff t).mpr h0) (iblk m c 0 t) (iblk m c 1 t),
      scrFirst c (grid0.coords t) (ms0 t) (hs0 t) (ms1 t) (hs1 t) (ms2 t) (hs2 t) scM (Memref.isWhole_whole _) ((isFirst_iff t).mpr h0) (iblk m c 0 t) (iblk m c 1 t)) := by
  obtain ⟨n, hn⟩ := t
  cases n with
  | zero => rfl
  | succ n => exact absurd h0 (Nat.succ_ne_zero n)

/-- `outsAt` at a later point: over what the point before left in the scratch. -/
theorem outsAt_later (c : Dev nD) (t : Fin cfg0.N) (h0 : ¬t.val = 0) :
    outsAt m c t.val t.isLt = (outLater c (grid0.coords t) (ms0 t) (hs0 t) (ms1 t) (hs1 t) (ms2 t) (hs2 t) scM (Memref.isWhole_whole _) (fun h => h0 ((isFirst_iff t).mp h)) (iblk m c 0 t) (iblk m c 1 t) (outsAt m c (t.val - 1) (Nat.lt_of_le_of_lt (Nat.sub_le _ _) t.isLt)).2,
      scrLater c (grid0.coords t) (ms0 t) (hs0 t) (ms1 t) (hs1 t) (ms2 t) (hs2 t) scM (Memref.isWhole_whole _) (fun h => h0 ((isFirst_iff t).mp h)) (iblk m c 0 t) (iblk m c 1 t) (outsAt m c (t.val - 1) (Nat.lt_of_le_of_lt (Nat.sub_le _ _) t.isLt)).2) := by
  obtain ⟨n, hn⟩ := t
  cases n with
  | zero => exact absurd rfl h0
  | succ n => rfl

/-- The region's invariant before position `n`: before the first point the scratch at anything;
    afterwards the scratch at what the point before left in it; the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data on core `c`: the arrays as the region finds them; after the body at point `t`
    each input's buffer at its block and the result's at the running total; the invariant `PhiS`;
    nothing owed; the input array held by halves, one per window that reads it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; at the first point the scratch is
    handed over at anything and at a later one at what the point before left; the case's run
    applies; the scratch is taken back at this point's total and the result's buffer holds it too. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  by_cases h0 : t.val = 0
  · rw [outsAt_first m c t h0]
    unfold outFirst scrFirst; (try dsimp only)
    rw [PhiS_castSucc m c t, PhiS_zero m c _ _ h0, PhiA_eq]
    iintro ⟨⟨HS, Hg⟩, Ho, ⟨%d0, H0⟩, ⟨%d1, H1⟩, ⟨%d2, H2⟩⟩
    iapply ((runFirst c (grid0.coords t) _ _ _ _ _ _ _ _ ((isFirst_iff t).mpr h0) (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (coverS_first c _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverO_first c _ _ _ _ _ _ _ _ _ _ _ _)
  · rw [outsAt_later m c t h0]
    unfold outLater scrLater; (try dsimp only)
    rw [PhiS_castSucc m c t, PhiS_pos m c _ _ h0]
    iintro ⟨⟨HS, Hg⟩, Ho, ⟨%d0, H0⟩, ⟨%d1, H1⟩, ⟨%d2, H2⟩⟩
    iapply ((runLater c (grid0.coords t) _ _ _ _ _ _ _ _ (fun h => h0 ((isFirst_iff t).mp h)) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (coverS_later c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverO_later c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Hand

end
-- ==== Proof.KnShares.lean ====
/-
  The input array is read through two windows. The launch hands the region each buffer behind a
  window whole; the pipeline wants each window's array at the window's share. Here the two are
  exchanged: the input array's full share is cut in its two halves, one per window, and the halves
  holding the same contents are joined back; the result's array is held whole throughout.
-/
import proofs.«176333_j50379966382605_2_alg».proof.Proof.KnFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the input array and the result's array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The pipeline's arrays at contents `G`, window by window: the input array at the left half for
    the class's rows and at the right half for the whole matrix, the result's array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  rw [(arr_whole0 0).set_eq_univ, (arr_whole0 2).set_eq_univ]
  rfl

/-- Cutting: the buffers behind the arrays, whole at `W`, give the pipeline's arrays at the same contents. -/
theorem arrays_of_bufs (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg0) (h2 : G 2 = W main_v0) :
    (Pipeline.arrBufs (Ix := Unit) (Name := ℕ) (U := UR sig nD τ) (Lvl := ℕ) spec0 c W : sProp 𝕄) ⊢ (dats m 0 c).arrays G := by
  rw [arrBufs_eq, arrays_eq3, h0, h1, h2]
  iintro ⟨HA, HV⟩
  ihave HA' := (pointsTo_share (PosShare.mem_left_op_right fullShare)).1 $$ HA
  icases HA' with ⟨HL, HR⟩
  isplitl [HL]; · iexact HL
  isplitl [HR]; · iexact HR
  iexact HV

/-- Joining: the pipeline's arrays, the two halves of the input array at one contents, give the
    buffers behind them whole. -/
theorem bufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg0) (h2 : G 2 = W main_v0) :
    ((dats m 0 c).arrays G : sProp 𝕄) ⊢ Pipeline.arrBufs (Ix := Unit) (Name := ℕ) (U := UR sig nD τ) (Lvl := ℕ) spec0 c W := by
  rw [arrBufs_eq, arrays_eq3, h0, h1, h2]
  iintro ⟨HL, HR, HV⟩
  isplitl [HL HR]
  · iapply (pointsTo_share (PosShare.mem_left_op_right fullShare)).2
    isplitl [HL]; · iexact HL
    iexact HR
  iexact HV

end Cert.Kernel.Hand

end
-- ==== Proof.KnLaunch.lean ====
/-
  The run of @main: the region, then the seven scalar host lines.

  At the region's exit every buffer holds its launch contents except the result's array, which
  holds what the last grid point wrote back. The host lines run within the unscoped buffers, the
  input array joined back from its halves for the while, and write none of the windows' arrays.
  The run ends with the final scalar at the host lines' value of the exit contents and the input
  array unchanged.
-/
import proofs.«176333_j50379966382605_2_alg».proof.Proof.KnShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The buffers at the region's exit and after the host lines -/

/-- Core `c`'s buffer contents at the region's exit: the result's array at what the write-backs
    left, every other buffer at its launch contents. -/
def Wexit (c : Dev nD) : Valuation τ sig (Elt F) := fun b =>
  if h : b = Proc.devRef .tc main_v0 then
    cast (congrArg (fun b' : DevRef τ sig => b'.ty.Contents (Elt F)) h.symm) ((dats m 0 c).arrAt 2 cfg0.N)
  else V0 m c b

theorem Wexit_v0 (c : Dev nD) : Wexit m c (Proc.devRef .tc main_v0) = (dats m 0 c).arrAt 2 cfg0.N := by
  unfold Wexit; rw [dif_pos rfl]; rfl

theorem Wexit_ne (c : Dev nD) (b : Ref sig .tc) (hb : b ≠ main_v0) : Wexit m c (Proc.devRef .tc b) = V m c b := by
  unfold Wexit; rw [dif_neg (fun e => hb (Proc.devRef_injective _ e))]

/-- The contents after the host lines. -/
def Wfin (c : Dev nD) : Valuation τ sig (Elt F) := StableHlo.after ([hostOps1].flatten) (Wexit m c)

theorem hostOps1_fresh : (hostOps1 : List (HloOp τ sig (Elt F))).Forall fun op => op.fresh = ∅ := by
  simp only [List.Forall]; repeat' constructor

/-- The host lines touch unscoped buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- and write neither the input array nor the result's array. -/
theorem sfx_keeps (b : Ref sig .tc) (hb : b = main_arg0 ∨ b = main_v0) :
    ∀ op ∈ ([hostOps1].flatten : List (HloOp τ sig (Elt F))), Proc.devRef .tc b ∉ op.writes := by
  intro op hop
  simp only [List.flatten_cons, List.flatten_nil, List.append_nil, hostOps1, List.mem_cons, List.mem_nil_iff, or_false] at hop
  rcases hb with rfl | rfl
  · rcases hop with rfl | rfl | rfl | rfl | rfl | rfl | rfl
    all_goals simp only [StableHlo.nullary_writes, StableHlo.unary_writes, StableHlo.binary_writes, StableHlo.reshape_writes, Finset.mem_singleton] <;> exact StableHlo.devRef_ne_of_ne (by decide)
  · rcases hop with rfl | rfl | rfl | rfl | rfl | rfl | rfl
    all_goals simp only [StableHlo.nullary_writes, StableHlo.unary_writes, StableHlo.binary_writes, StableHlo.reshape_writes, Finset.mem_singleton] <;> exact StableHlo.devRef_ne_of_ne (by decide)

theorem Wfin_arg0 (c : Dev nD) : Wfin m c (Proc.devRef .tc main_arg0) = V m c main_arg0 := by
  unfold Wfin
  rw [StableHlo.after_of_forall_not_mem _ _ (sfx_keeps main_arg0 (.inl rfl)), Wexit_ne m c main_arg0 (by decide)]

theorem Wfin_v0 (c : Dev nD) : Wfin m c (Proc.devRef .tc main_v0) = (dats m 0 c).arrAt 2 cfg0.N := by
  unfold Wfin
  rw [StableHlo.after_of_forall_not_mem _ _ (sfx_keeps main_v0 (.inr rfl)), Wexit_v0]

/-! ## @main around the region -/

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- An input window's array is never written: it ends at its launch contents. -/
theorem arrAt_0 (c : Dev nD) (n : ℕ) : (dats m 0 c).arrAt 0 n = V m c main_arg0 :=
  ((dats m 0 c).arrAt_in 0 rfl n).trans (A_eq m c 0)
theorem arrAt_1 (c : Dev nD) (n : ℕ) : (dats m 0 c).arrAt 1 n = V m c main_arg0 :=
  ((dats m 0 c).arrAt_in 1 rfl n).trans (A_eq m c 1)

/-- The unscoped buffers held at a valuation: the buffers behind the arrays and the rest. -/
theorem held_uc (c : Dev nD) (Wv : Valuation τ sig (Elt F)) :
    (StableHlo.held (c.tc : Thread nD τ) (Pipeline.ucRefs τ sig) Wv : sProp 𝕄)
      = iprop((Pipeline.arrBufs spec0 c (fun b => Wv (Proc.devRef .tc b)) : sProp 𝕄) ∗ Pipeline.unscopedRest spec0 c (fun b => Wv (Proc.devRef .tc b))) := by
  rw [← Pipeline.unscopedBufs_held (Ix := Unit) (Name := ℕ) (U := UR sig nD τ) (Lvl := ℕ) c Wv]
  exact Pipeline.unscopedBufs_split₀ (Ix := Unit) (Name := ℕ) (U := UR sig nD τ) (Lvl := ℕ) cfgs 0 winFacts₀0.arr_unscoped c _

/-- At the exit the bypassing buffers hold their launch contents. -/
theorem rest_exit (c : Dev nD) :
    (Pipeline.unscopedRest spec0 c (fun b => Wexit m c (Proc.devRef .tc b)) : sProp 𝕄) = Pipeline.unscopedRest spec0 c (V m c) := by
  unfold Pipeline.unscopedRest
  exact bigSep_congr fun b hb => by
    dsimp only
    rw [Wexit_ne m c b fun e => (Finset.mem_sdiff.mp hb).2 (Finset.mem_image.mpr ⟨2, Finset.mem_univ _, e ▸ rfl⟩)]

set_option backward.isDefEq.respectTransparency.types false in
/-- THE HOST LINES from the region's exit: the two halves of the input array are joined, the lines
    run within the unscoped buffers, and the input array is cut in halves again. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ (Pipeline.chain ([hostOps1].map StableHlo.seq)) Q' := by
  rw [← List.append_nil ([hostOps1].map StableHlo.seq)]
  iintro ⟨Hk, Hb, Ha, Hr⟩
  ihave Hbufs := (bufs_of_arrays m c (fun b => Wexit m c (Proc.devRef .tc b)) _
    ((arrAt_0 m c _).trans (Wexit_ne m c main_arg0 (by decide)).symm) ((arrAt_1 m c _).trans (Wexit_ne m c main_arg0 (by decide)).symm) (Wexit_v0 m c).symm) $$ Ha
  ihave Hheld := (show iprop((Pipeline.arrBufs spec0 c (fun b => Wexit m c (Proc.devRef .tc b)) : sProp 𝕄) ∗ Pipeline.unscopedRest spec0 c (V m c))
      ⊢ StableHlo.held (c.tc : Thread nD τ) (Pipeline.ucRefs τ sig) (Wexit m c) from by rw [held_uc, rest_exit]) $$ [Hbufs Hr]
  · isplitl [Hbufs]; · iexact Hbufs
    iexact Hr
  iapply (Pipeline.wp_seqs_then (fun q => (cfgs q).toPCfg (Val := Elt F)) defs₀ Variants.none c (Pipeline.ucRefs τ sig) [] [hostOps1] sfx_sub sfx_fresh (Wexit m c)) $$ [Hb Hheld]
  · isplitl [Hb]; · iexact Hb
    iexact Hheld
  iintro Hb
  rw [Pipeline.chain_nil, wp_pure, held_uc]
  imodintro
  iapply Hk
  icases Hb with ⟨-, Hbufs, Hr⟩
  isplitl [Hbufs]
  · iapply (arrays_of_bufs m c (fun b => Wfin m c (Proc.devRef .tc b)) _
      ((arrAt_0 m c _).trans (Wfin_arg0 m c).symm) ((arrAt_1 m c _).trans (Wfin_arg0 m c).symm) (Wfin_v0 m c).symm)
    iexact Hbufs
  iexact Hr

/-! ## The run -/

/-- At the compiled mesh, for any float values, from any memory with zero counters: every weakly
    fair execution of @main terminates, with the final scalar at the host lines' value of the exit
    contents and the input array unchanged. -/
theorem run_main : θ_run (defs (F := F)) (onTc (τ := τ) (main (F := F))) ⟨m, fun _ => 0, ρ⟩ (fun r => ∀ c : Dev nD,
      r.2.mem ((c.tc : Thread nD τ).loc main_v4) = Wfin m c (Proc.devRef .tc main_v4)
      ∧ r.2.mem ((c.tc : Thread nD τ).loc main_arg0) = m ((c.tc : Thread nD τ).loc main_arg0)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (arrAt_0 m c 0) (arrAt_1 m c 0) (A_eq m c 2))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefsP sig Pipeline.Prefetch.none spec0, s.mem ((c.tc : Thread nD τ).loc b) = Wfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wfin m c (Proc.devRef .tc b)) s')
      isplitl [HU] <;> iassumption)
    (hQ := fun s h c => ⟨(h c).2.2 main_v4 (by decide),
      ((h c).1 0).trans ((arrAt_0 m c _).trans (V_main_arg0 m c))⟩)

end Cert.Kernel.Hand

end
-- ==== Proof.KiBase.lean ====
/-
  What the frame of the kernel's program is stated over.

  The region is entered with every buffer at its launch contents (no host line precedes it), and
  is followed by seven scalar host lines. The kernel has three windows: the class's 8 rows and the
  whole matrix, both read from the one input array, and the [1,1] result; and one [1,1] scratch
  buffer that carries the running total from grid point to grid point. The body's one branch is
  taken at the first grid point only, where it clears the scratch.
-/
import proofs.«176333_j50379966382605_2_alg».proof.Proof.Gen.KernelIdeal.Launch
import proofs.«176333_j50379966382605_2_alg».proof.Proof.Gen.KernelIdeal.Skeleton
import proofs.«176333_j50379966382605_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch contents. -/
abbrev V0 (c : Dev nD) : Valuation τ sig (Elt F) := fun b => m (c, b)
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch: the first grid point -/

/-- The condition of the body's branch, from the grid coordinate: the class index is zero. -/
abbrev isFirst (i : grid0.Coords) : Prop :=
  (Scalar.cmpi .ne (Scalar.extui (Scalar.cmpi .eq (BitVec.ofNat 32 (i 0).val) 0#32)) 0#32) = 1#1

/-- It holds at the first grid point and at no other. -/
theorem isFirst_iff : ∀ t : Fin cfg0.N, isFirst (grid0.coords t) ↔ t.val = 0 :=
  (by decide +kernel : ∀ t : Fin grid0.N, isFirst (grid0.coords t) ↔ t.val = 0)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## The memrefs the body is called with -/

abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch that carries the running total. -/
abbrev scM : Memref sig .tc .vmem S1x1 .f32 := Memref.whole cc0_scratch0
/-- The views through which the result's staging buffer and the scratch are read. -/
abbrev VO : View sig .tc .vmem S1x1 .f32 := (Memref.whole cc0_stg2_0 : Memref sig .tc .vmem S1x1 .f32).view
abbrev VS : View sig .tc .vmem S1x1 .f32 := scM.view

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KiRunFirst.lean ====
/-
  The body at the first grid point: it clears the scratch, adds the class's sum to it, and copies
  it to the result's staging buffer. What each written buffer ends with is found as the list of
  the stores made into it.
-/
import proofs.«176333_j50379966382605_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point, on whole memrefs — the two inputs' at their contents, the result's and
    the scratch at anything — the body runs to the continuation holding the inputs' as they were
    and the result's buffer and the scratch with the listed stores written. -/
noncomputable def runFirst (c : Dev nD) (i : grid0.Coords)
    (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ (∃ d, owns (c : Thread nD τ) arg4 fullShare d)
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__ap_kernel i arg1 harg1 arg2 harg2 arg3 harg3 arg4 harg4) K } := by
  refine ⟨?_, ?_, fun E K => ?run⟩
  case run =>
    simp only [cc0__ap_kernel_eq_skeleton]; unfold cc0__ap_kernel_skel
    simp only [k0_part1_eq_skeleton]; unfold k0_part1_skel
    unfold owns
    iintro ⟨⟨%f1, %hf1, H1⟩, ⟨%f2, %hf2, H2⟩, ⟨%d3, %f3, -, H3⟩, ⟨%d4, %f4, -, H4⟩, Hk⟩
    obtain rfl := harg1.eq_unread hf1; obtain rfl := harg2.eq_unread hf2
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    iexists _; iexact H4

end Cert.KernelIdeal.Hand

end
-- ==== Proof.KiRunLater.lean ====
/-
  The body at every later grid point: it adds the class's sum to what the scratch holds and copies
  the new total to the result's staging buffer.
-/
import proofs.«176333_j50379966382605_2_alg».proof.Proof.KiRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later grid point, on whole memrefs — the two inputs' at their contents, the result's at
    anything, the scratch at the total `xs` the point before left — the body runs to the
    continuation holding the inputs' as they were and the result's buffer and the scratch with the
    listed stores written. -/
noncomputable def runLater (c : Dev nD) (i : grid0.Coords)
    (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ owns (c : Thread nD τ) arg4 fullShare xs
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__ap_kernel i arg1 harg1 arg2 harg2 arg3 harg3 arg4 harg4) K } := by
  refine ⟨?_, ?_, fun E K => ?run⟩
  case run =>
    simp only [cc0__ap_kernel_eq_skeleton]; unfold cc0__ap_kernel_skel
    simp only [k0_part1_eq_skeleton]; unfold k0_part1_skel
    unfold owns
    iintro ⟨⟨%f1, %hf1, H1⟩, ⟨%f2, %hf2, H2⟩, ⟨%d3, %f3, -, H3⟩, ⟨%f4, %hf4, H4⟩, Hk⟩
    obtain rfl := harg1.eq_unread hf1; obtain rfl := harg2.eq_unread hf2; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    iexists _; iexact H4

end Cert.KernelIdeal.Hand

end
-- ==== Proof.KiFrame.lean ====
/-
  What the result's staging buffer and the scratch hold after the body at each grid point, the
  proof data of the pipeline, and the body's obligation at every point.

  After the first point both hold the first class's sum added to the zero the body stored; after
  each later point both hold the class's sum added to what the scratch held before. The two input
  windows read one array: each holds half of it.
-/
import proofs.«176333_j50379966382605_2_alg».proof.Proof.KiRunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the stores read back -/

/-- At the first point the stores into the result's staging buffer cover it. -/
theorem coverO_first (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) (y : S1x1.Idx) :
    ∃ pc ∈ (runFirst c i arg1 harg1 arg2 harg2 arg3 harg3 arg4 harg4 hc x1 x2).1, y ∈ pc.1.set :=
  View.cover_of_tiledL (runFirst c i arg1 harg1 arg2 harg2 arg3 harg3 arg4 harg4 hc x1 x2).1 S1x1.size (by sl_kernel_rfl) y

/-- What the first point leaves in the result's staging buffer. -/
def outFirst (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) : Vec F S1x1 .f32 :=
  VO.read (Elt F) (VO.writes (Elt F) VO.junk (runFirst c i arg1 harg1 arg2 harg2 arg3 harg3 arg4 harg4 hc x1 x2).1)

/-- At the first point the stores into the scratch cover it. -/
theorem coverS_first (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) (y : S1x1.Idx) :
    ∃ pc ∈ (runFirst c i arg1 harg1 arg2 harg2 arg3 harg3 arg4 harg4 hc x1 x2).2.1, y ∈ pc.1.set :=
  View.cover_of_tiledL (runFirst c i arg1 harg1 arg2 harg2 arg3 harg3 arg4 harg4 hc x1 x2).2.1 S1x1.size (by sl_kernel_rfl) y

/-- What the first point leaves in the scratch. -/
def scrFirst (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) : Vec F S1x1 .f32 :=
  VS.read (Elt F) (VS.writes (Elt F) VS.junk (runFirst c i arg1 harg1 arg2 harg2 arg3 harg3 arg4 harg4 hc x1 x2).2.1)

/-- At a later point the stores into the result's staging buffer cover it. -/
theorem coverO_later (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) (y : S1x1.Idx) :
    ∃ pc ∈ (runLater c i arg1 harg1 arg2 harg2 arg3 harg3 arg4 harg4 hc x1 x2 xs).1, y ∈ pc.1.set :=
  View.cover_of_tiledL (runLater c i arg1 harg1 arg2 harg2 arg3 harg3 arg4 harg4 hc x1 x2 xs).1 S1x1.size (by sl_kernel_rfl) y

/-- What a later point leaves in the result's staging buffer. -/
def outLater (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) : Vec F S1x1 .f32 :=
  VO.read (Elt F) (VO.writes (Elt F) VO.junk (runLater c i arg1 harg1 arg2 harg2 arg3 harg3 arg4 harg4 hc x1 x2 xs).1)

/-- At a later point the stores into the scratch cover it. -/
theorem coverS_later (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) (y : S1x1.Idx) :
    ∃ pc ∈ (runLater c i arg1 harg1 arg2 harg2 arg3 harg3 arg4 harg4 hc x1 x2 xs).2.1, y ∈ pc.1.set :=
  View.cover_of_tiledL (runLater c i arg1 harg1 arg2 harg2 arg3 harg3 arg4 harg4 hc x1 x2 xs).2.1 S1x1.size (by sl_kernel_rfl) y

/-- What a later point leaves in the scratch. -/
def scrLater (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) : Vec F S1x1 .f32 :=
  VS.read (Elt F) (VS.writes (Elt F) VS.junk (runLater c i arg1 harg1 arg2 harg2 arg3 harg3 arg4 harg4 hc x1 x2 xs).2.1)

/-! ## The running total, point by point -/

/-- What the result's staging buffer (first component) and the scratch (second) hold after the body
    at position `n`: the first point's contents, then each later point's over what the scratch held. -/
def outsAt (c : Dev nD) : (n : ℕ) → n < cfg0.N → Vec F S1x1 .f32 × Vec F S1x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr rfl) (iblk m c 0 ⟨0, hn⟩) (iblk m c 1 ⟨0, hn⟩),
              scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr rfl) (iblk m c 0 ⟨0, hn⟩) (iblk m c 1 ⟨0, hn⟩))
  | n + 1, hn =>
    (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => Nat.succ_ne_zero n ((isFirst_iff ⟨n + 1, hn⟩).mp h)) (iblk m c 0 ⟨n + 1, hn⟩) (iblk m c 1 ⟨n + 1, hn⟩) (outsAt c n (Nat.lt_of_succ_lt hn)).2,
     scrLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => Nat.succ_ne_zero n ((isFirst_iff ⟨n + 1, hn⟩).mp h)) (iblk m c 0 ⟨n + 1, hn⟩) (iblk m c 1 ⟨n + 1, hn⟩) (outsAt c n (Nat.lt_of_succ_lt hn)).2)

/-- `outsAt` at the first point. -/
theorem outsAt_first (c : Dev nD) (t : Fin cfg0.N) (h0 : t.val = 0) :
    outsAt m c t.val t.isLt = (outFirst c (grid0.coords t) (ms0 t) (hs0 t) (ms1 t) (hs1 t) (ms2 t) (hs2 t) scM (Memref.isWhole_whole _) ((isFirst_iff t).mpr h0) (iblk m c 0 t) (iblk m c 1 t),
      scrFirst c (grid0.coords t) (ms0 t) (hs0 t) (ms1 t) (hs1 t) (ms2 t) (hs2 t) scM (Memref.isWhole_whole _) ((isFirst_iff t).mpr h0) (iblk m c 0 t) (iblk m c 1 t)) := by
  obtain ⟨n, hn⟩ := t
  cases n with
  | zero => rfl
  | succ n => exact absurd h0 (Nat.succ_ne_zero n)

/-- `outsAt` at a later point: over what the point before left in the scratch. -/
theorem outsAt_later (c : Dev nD) (t : Fin cfg0.N) (h0 : ¬t.val = 0) :
    outsAt m c t.val t.isLt = (outLater c (grid0.coords t) (ms0 t) (hs0 t) (ms1 t) (hs1 t) (ms2 t) (hs2 t) scM (Memref.isWhole_whole _) (fun h => h0 ((isFirst_iff t).mp h)) (iblk m c 0 t) (iblk m c 1 t) (outsAt m c (t.val - 1) (Nat.lt_of_le_of_lt (Nat.sub_le _ _) t.isLt)).2,
      scrLater c (grid0.coords t) (ms0 t) (hs0 t) (ms1 t) (hs1 t) (ms2 t) (hs2 t) scM (Memref.isWhole_whole _) (fun h => h0 ((isFirst_iff t).mp h)) (iblk m c 0 t) (iblk m c 1 t) (outsAt m c (t.val - 1) (Nat.lt_of_le_of_lt (Nat.sub_le _ _) t.isLt)).2) := by
  obtain ⟨n, hn⟩ := t
  cases n with
  | zero => exact absurd rfl h0
  | succ n => rfl

/-- The region's invariant before position `n`: before the first point the scratch at anything;
    afterwards the scratch at what the point before left in it; the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The proof data on core `c`: the arrays as the region finds them; after the body at point `t`
    each input's buffer at its block and the result's at the running total; the invariant `PhiS`;
    nothing owed; the input array held by halves, one per window that reads it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; at the first point the scratch is
    handed over at anything and at a later one at what the point before left; the case's run
    applies; the scratch is taken back at this point's total and the result's buffer holds it too. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  by_cases h0 : t.val = 0
  · rw [outsAt_first m c t h0]
    unfold outFirst scrFirst; (try dsimp only)
    rw [PhiS_castSucc m c t, PhiS_zero m c _ _ h0, PhiA_eq]
    iintro ⟨⟨HS, Hg⟩, Ho, ⟨%d0, H0⟩, ⟨%d1, H1⟩, ⟨%d2, H2⟩⟩
    iapply ((runFirst c (grid0.coords t) _ _ _ _ _ _ _ _ ((isFirst_iff t).mpr h0) (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (coverS_first c _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverO_first c _ _ _ _ _ _ _ _ _ _ _ _)
  · rw [outsAt_later m c t h0]
    unfold outLater scrLater; (try dsimp only)
    rw [PhiS_castSucc m c t, PhiS_pos m c _ _ h0]
    iintro ⟨⟨HS, Hg⟩, Ho, ⟨%d0, H0⟩, ⟨%d1, H1⟩, ⟨%d2, H2⟩⟩
    iapply ((runLater c (grid0.coords t) _ _ _ _ _ _ _ _ (fun h => h0 ((isFirst_iff t).mp h)) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact View.read_writes_of_cover _ _ _ _ _ (coverS_later c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverO_later c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Hand

end
-- ==== Proof.KiShares.lean ====
/-
  The input array is read through two windows. The launch hands the region each buffer behind a
  window whole; the pipeline wants each window's array at the window's share. Here the two are
  exchanged: the input array's full share is cut in its two halves, one per window, and the halves
  holding the same contents are joined back; the result's array is held whole throughout.
-/
import proofs.«176333_j50379966382605_2_alg».proof.Proof.KiFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the input array and the result's array. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  exact bigSep_eq_bigSepL_of_eq [main_arg0, main_v0] (by decide) (by decide) _

/-- The pipeline's arrays at contents `G`, window by window: the input array at the left half for
    the class's rows and at the right half for the whole matrix, the result's array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  rw [(arr_whole0 0).set_eq_univ, (arr_whole0 2).set_eq_univ]
  rfl

/-- Cutting: the buffers behind the arrays, whole at `W`, give the pipeline's arrays at the same contents. -/
theorem arrays_of_bufs (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg0) (h2 : G 2 = W main_v0) :
    (Pipeline.arrBufs (Ix := Unit) (Name := ℕ) (U := UR sig nD τ) (Lvl := ℕ) spec0 c W : sProp 𝕄) ⊢ (dats m 0 c).arrays G := by
  rw [arrBufs_eq, arrays_eq3, h0, h1, h2]
  iintro ⟨HA, HV⟩
  ihave HA' := (pointsTo_share (PosShare.mem_left_op_right fullShare)).1 $$ HA
  icases HA' with ⟨HL, HR⟩
  isplitl [HL]; · iexact HL
  isplitl [HR]; · iexact HR
  iexact HV

/-- Joining: the pipeline's arrays, the two halves of the input array at one contents, give the
    buffers behind them whole. -/
theorem bufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_arg0) (h1 : G 1 = W main_arg0) (h2 : G 2 = W main_v0) :
    ((dats m 0 c).arrays G : sProp 𝕄) ⊢ Pipeline.arrBufs (Ix := Unit) (Name := ℕ) (U := UR sig nD τ) (Lvl := ℕ) spec0 c W := by
  rw [arrBufs_eq, arrays_eq3, h0, h1, h2]
  iintro ⟨HL, HR, HV⟩
  isplitl [HL HR]
  · iapply (pointsTo_share (PosShare.mem_left_op_right fullShare)).2
    isplitl [HL]; · iexact HL
    iexact HR
  iexact HV

end Cert.KernelIdeal.Hand

end
-- ==== Proof.KiLaunch.lean ====
/-
  The run of @main: the region, then the seven scalar host lines.

  At the region's exit every buffer holds its launch contents except the result's array, which
  holds what the last grid point wrote back. The host lines run within the unscoped buffers, the
  input array joined back from its halves for the while, and write none of the windows' arrays.
  The run ends with the final scalar at the host lines' value of the exit contents and the input
  array unchanged.
-/
import proofs.«176333_j50379966382605_2_alg».proof.Proof.KiShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The buffers at the region's exit and after the host lines -/

/-- Core `c`'s buffer contents at the region's exit: the result's array at what the write-backs
    left, every other buffer at its launch contents. -/
def Wexit (c : Dev nD) : Valuation τ sig (Elt F) := fun b =>
  if h : b = Proc.devRef .tc main_v0 then
    cast (congrArg (fun b' : DevRef τ sig => b'.ty.Contents (Elt F)) h.symm) ((dats m 0 c).arrAt 2 cfg0.N)
  else V0 m c b

theorem Wexit_v0 (c : Dev nD) : Wexit m c (Proc.devRef .tc main_v0) = (dats m 0 c).arrAt 2 cfg0.N := by
  unfold Wexit; rw [dif_pos rfl]; rfl

theorem Wexit_ne (c : Dev nD) (b : Ref sig .tc) (hb : b ≠ main_v0) : Wexit m c (Proc.devRef .tc b) = V m c b := by
  unfold Wexit; rw [dif_neg (fun e => hb (Proc.devRef_injective _ e))]

/-- The contents after the host lines. -/
def Wfin (c : Dev nD) : Valuation τ sig (Elt F) := StableHlo.after ([hostOps1].flatten) (Wexit m c)

theorem hostOps1_fresh : (hostOps1 : List (HloOp τ sig (Elt F))).Forall fun op => op.fresh = ∅ := by
  simp only [List.Forall]; repeat' constructor

/-- The host lines touch unscoped buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- and write neither the input array nor the result's array. -/
theorem sfx_keeps (b : Ref sig .tc) (hb : b = main_arg0 ∨ b = main_v0) :
    ∀ op ∈ ([hostOps1].flatten : List (HloOp τ sig (Elt F))), Proc.devRef .tc b ∉ op.writes := by
  intro op hop
  simp only [List.flatten_cons, List.flatten_nil, List.append_nil, hostOps1, List.mem_cons, List.mem_nil_iff, or_false] at hop
  rcases hb with rfl | rfl
  · rcases hop with rfl | rfl | rfl | rfl | rfl | rfl | rfl
    all_goals simp only [StableHlo.nullary_writes, StableHlo.unary_writes, StableHlo.binary_writes, StableHlo.reshape_writes, Finset.mem_singleton] <;> exact StableHlo.devRef_ne_of_ne (by decide)
  · rcases hop with rfl | rfl | rfl | rfl | rfl | rfl | rfl
    all_goals simp only [StableHlo.nullary_writes, StableHlo.unary_writes, StableHlo.binary_writes, StableHlo.reshape_writes, Finset.mem_singleton] <;> exact StableHlo.devRef_ne_of_ne (by decide)

theorem Wfin_arg0 (c : Dev nD) : Wfin m c (Proc.devRef .tc main_arg0) = V m c main_arg0 := by
  unfold Wfin
  rw [StableHlo.after_of_forall_not_mem _ _ (sfx_keeps main_arg0 (.inl rfl)), Wexit_ne m c main_arg0 (by decide)]

theorem Wfin_v0 (c : Dev nD) : Wfin m c (Proc.devRef .tc main_v0) = (dats m 0 c).arrAt 2 cfg0.N := by
  unfold Wfin
  rw [StableHlo.after_of_forall_not_mem _ _ (sfx_keeps main_v0 (.inr rfl)), Wexit_v0]

/-! ## @main around the region -/

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- An input window's array is never written: it ends at its launch contents. -/
theorem arrAt_0 (c : Dev nD) (n : ℕ) : (dats m 0 c).arrAt 0 n = V m c main_arg0 :=
  ((dats m 0 c).arrAt_in 0 rfl n).trans (A_eq m c 0)
theorem arrAt_1 (c : Dev nD) (n : ℕ) : (dats m 0 c).arrAt 1 n = V m c main_arg0 :=
  ((dats m 0 c).arrAt_in 1 rfl n).trans (A_eq m c 1)

/-- The unscoped buffers held at a valuation: the buffers behind the arrays and the rest. -/
theorem held_uc (c : Dev nD) (Wv : Valuation τ sig (Elt F)) :
    (StableHlo.held (c.tc : Thread nD τ) (Pipeline.ucRefs τ sig) Wv : sProp 𝕄)
      = iprop((Pipeline.arrBufs spec0 c (fun b => Wv (Proc.devRef .tc b)) : sProp 𝕄) ∗ Pipeline.unscopedRest spec0 c (fun b => Wv (Proc.devRef .tc b))) := by
  rw [← Pipeline.unscopedBufs_held (Ix := Unit) (Name := ℕ) (U := UR sig nD τ) (Lvl := ℕ) c Wv]
  exact Pipeline.unscopedBufs_split₀ (Ix := Unit) (Name := ℕ) (U := UR sig nD τ) (Lvl := ℕ) cfgs 0 winFacts₀0.arr_unscoped c _

/-- At the exit the bypassing buffers hold their launch contents. -/
theorem rest_exit (c : Dev nD) :
    (Pipeline.unscopedRest spec0 c (fun b => Wexit m c (Proc.devRef .tc b)) : sProp 𝕄) = Pipeline.unscopedRest spec0 c (V m c) := by
  unfold Pipeline.unscopedRest
  exact bigSep_congr fun b hb => by
    dsimp only
    rw [Wexit_ne m c b fun e => (Finset.mem_sdiff.mp hb).2 (Finset.mem_image.mpr ⟨2, Finset.mem_univ _, e ▸ rfl⟩)]

set_option backward.isDefEq.respectTransparency.types false in
/-- THE HOST LINES from the region's exit: the two halves of the input array are joined, the lines
    run within the unscoped buffers, and the input array is cut in halves again. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ (Pipeline.chain ([hostOps1].map StableHlo.seq)) Q' := by
  rw [← List.append_nil ([hostOps1].map StableHlo.seq)]
  iintro ⟨Hk, Hb, Ha, Hr⟩
  ihave Hbufs := (bufs_of_arrays m c (fun b => Wexit m c (Proc.devRef .tc b)) _
    ((arrAt_0 m c _).trans (Wexit_ne m c main_arg0 (by decide)).symm) ((arrAt_1 m c _).trans (Wexit_ne m c main_arg0 (by decide)).symm) (Wexit_v0 m c).symm) $$ Ha
  ihave Hheld := (show iprop((Pipeline.arrBufs spec0 c (fun b => Wexit m c (Proc.devRef .tc b)) : sProp 𝕄) ∗ Pipeline.unscopedRest spec0 c (V m c))
      ⊢ StableHlo.held (c.tc : Thread nD τ) (Pipeline.ucRefs τ sig) (Wexit m c) from by rw [held_uc, rest_exit]) $$ [Hbufs Hr]
  · isplitl [Hbufs]; · iexact Hbufs
    iexact Hr
  iapply (Pipeline.wp_seqs_then (fun q => (cfgs q).toPCfg (Val := Elt F)) defs₀ Variants.none c (Pipeline.ucRefs τ sig) [] [hostOps1] sfx_sub sfx_fresh (Wexit m c)) $$ [Hb Hheld]
  · isplitl [Hb]; · iexact Hb
    iexact Hheld
  iintro Hb
  rw [Pipeline.chain_nil, wp_pure, held_uc]
  imodintro
  iapply Hk
  icases Hb with ⟨-, Hbufs, Hr⟩
  isplitl [Hbufs]
  · iapply (arrays_of_bufs m c (fun b => Wfin m c (Proc.devRef .tc b)) _
      ((arrAt_0 m c _).trans (Wfin_arg0 m c).symm) ((arrAt_1 m c _).trans (Wfin_arg0 m c).symm) (Wfin_v0 m c).symm)
    iexact Hbufs
  iexact Hr

/-! ## The run -/

/-- At the compiled mesh, for any float values, from any memory with zero counters: every weakly
    fair execution of @main terminates, with the final scalar at the host lines' value of the exit
    contents and the input array unchanged. -/
theorem run_main : θ_run (defs (F := F)) (onTc (τ := τ) (main (F := F))) ⟨m, fun _ => 0, ρ⟩ (fun r => ∀ c : Dev nD,
      r.2.mem ((c.tc : Thread nD τ).loc main_v4) = Wfin m c (Proc.devRef .tc main_v4)
      ∧ r.2.mem ((c.tc : Thread nD τ).loc main_arg0) = m ((c.tc : Thread nD τ).loc main_arg0)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ (arrAt_0 m c 0) (arrAt_1 m c 0) (A_eq m c 2))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefsP sig Pipeline.Prefetch.none spec0, s.mem ((c.tc : Thread nD τ).loc b) = Wfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wfin m c (Proc.devRef .tc b)) s')
      isplitl [HU] <;> iassumption)
    (hQ := fun s h c => ⟨(h c).2.2 main_v4 (by decide),
      ((h c).1 0).trans ((arrAt_0 m c _).trans (V_main_arg0 m c))⟩)

end Cert.KernelIdeal.Hand

end
-- ==== Proof.ApSpec.lean ====
/-
  The quantity both programs compute, as one function of the input matrix, on the extended reals.

  `P` is the 512 x 128 input, its 512 rows in 64 classes of 8 consecutive rows. With
  `sim i k = sum_d P i d * P k d` the similarity of rows `i` and `k`, and `tsig` the sigmoid at
  temperature 0.01 with its exponent clipped to [-50, 50], the smoothed rank of column `j` in row `i`
  among all rows is `rkAll i j = 1 + sum_{k} tsig (sim i k - sim i j) * [j ≠ k]`, and among the rows of
  the class of `i` it is `rkPos c i j = 1 + sum_{k < 8} tsig (sim (8c+i) (8c+k) - sim (8c+i) (8c+j)) * [j ≠ k]`.
  The result is `1 - ((sum_{c,i,j} rkPos c i j / rkAll (8c+i) (8c+j)) / 8) / 512`.

  Float literals are kept as the words the programs print; only the word of 1.0, which meets a
  mask's 0/1, and the zero word are ever evaluated.
-/
import Idealize.ShloMosaic.PureOps.Ideal
import Idealize.ShloMosaic.Lib.ValueIdx

noncomputable section

namespace Cert.ApSpec

open Idealize.ShloMosaic

/-- The extended real an f32 word denotes. -/
abbrev lit (w : BitVec 32) : EReal := Ideal.ofBits .f32 w

/-- Row `i` of class `c`: row `8 c + i` of the matrix. -/
def row (c : Fin 64) (i : Fin 8) : Fin 512 := ⟨8 * c.val + i.val, by omega⟩

/-- The similarity of rows `i` and `k`: their inner product. -/
def sim (P : Fin 512 → Fin 128 → EReal) (i k : Fin 512) : EReal := ∑ d : Fin 128, P i d * P k d

/-- The sigmoid at temperature 0.01, the exponent `-x / 0.01` clipped to [-50, 50]:
    `1 / (1 + exp (min 50 (max (-50) (-x / 0.01))))`. -/
def tsig (x : EReal) : EReal :=
  Ideal.div (lit 0x3F800000#32)
    (lit 0x3F800000#32 + Ideal.exp (min (lit 0x42480000#32) (max (lit 0xC2480000#32) (Ideal.div (-x) (lit 0x3C23D70A#32)))))

/-- The mask that leaves out the column itself: 0 on the diagonal, 1 off it. -/
def offdiag {n : Nat} (j k : Fin n) : EReal := if j = k then 0 else 1

/-- The smoothed rank of column `j` in row `i` among all 512 rows. -/
def rkAll (P : Fin 512 → Fin 128 → EReal) (i j : Fin 512) : EReal :=
  (∑ k : Fin 512, tsig (sim P i k - sim P i j) * offdiag j k) + lit 0x3F800000#32

/-- The smoothed rank of column `j` in row `i` of class `c` among the 8 rows of the class. -/
def rkPos (P : Fin 512 → Fin 128 → EReal) (c : Fin 64) (i j : Fin 8) : EReal :=
  (∑ k : Fin 8, tsig (sim P (row c i) (row c k) - sim P (row c i) (row c j)) * offdiag j k) + lit 0x3F800000#32

/-- The ratio of the two ranks at entry `(i, j)` of class `c`'s diagonal block. -/
def ratio (P : Fin 512 → Fin 128 → EReal) (c : Fin 64) (i j : Fin 8) : EReal :=
  Ideal.div (rkPos P c i j) (rkAll P (row c i) (row c j))

/-- The sum of the ratios over class `c`'s 8 x 8 diagonal block. -/
def classSum (P : Fin 512 → Fin 128 → EReal) (c : Fin 64) : EReal := ∑ i : Fin 8, ∑ j : Fin 8, ratio P c i j

/-- The sum of the ratios over every class. -/
def total (P : Fin 512 → Fin 128 → EReal) : EReal := ∑ c : Fin 64, classSum P c

/-- The sum of the first `n` classes' sums: what the running total holds after `n` classes. -/
def upTo (P : Fin 512 → Fin 128 → EReal) (n : Nat) : EReal := ∑ c ∈ Finset.univ.filter (fun c : Fin 64 => c.val < n), classSum P c

/-- From a total to the result: `1 - (s / 8) / 512`. -/
def finish (s : EReal) : EReal :=
  lit 0x3F800000#32 - Ideal.div (Ideal.div s (lit 0x41000000#32)) (lit 0x44000000#32)

/-- The result. -/
def result (P : Fin 512 → Fin 128 → EReal) : EReal := finish (total P)

theorem upTo_zero (P : Fin 512 → Fin 128 → EReal) : upTo P 0 = 0 := by
  unfold upTo
  rw [Finset.filter_false_of_mem (fun c _ => Nat.not_lt_zero _), Finset.sum_empty]

/-- One more class: the running total after `n + 1` classes is the one after `n` plus class `n`'s sum. -/
theorem upTo_succ (P : Fin 512 → Fin 128 → EReal) (n : Nat) (hn : n < 64) :
    upTo P (n + 1) = upTo P n + classSum P ⟨n, hn⟩ := by
  unfold upTo
  have hsplit : Finset.univ.filter (fun c : Fin 64 => c.val < n + 1)
      = insert (⟨n, hn⟩ : Fin 64) (Finset.univ.filter (fun c : Fin 64 => c.val < n)) := by
    ext c
    simp only [Finset.mem_filter, Finset.mem_univ, true_and, Finset.mem_insert, Fin.ext_iff]
    omega
  rw [hsplit, Finset.sum_insert (by simp), add_comm]

/-- After all 64 classes the running total is the total. -/
theorem upTo_all (P : Fin 512 → Fin 128 → EReal) : upTo P 64 = total P := by
  unfold upTo total
  rw [Finset.filter_true_of_mem (fun c _ => c.isLt)]

end Cert.ApSpec

end
-- ==== Proof.KiResult.lean ====
/-
  The final scalar, at the ideal instance: the seven host lines take the result's one entry `s`
  to `1 - (s / 8) / 512`.
-/
import proofs.«176333_j50379966382605_2_alg».proof.Proof.KiLaunch
import proofs.«176333_j50379966382605_2_alg».proof.Proof.ApSpec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

/-- The host lines' arithmetic on any [1,1] array `A`: reshaped to a scalar, divided by 8, by 512,
    and subtracted from 1, it is `1 - (A[0,0] / 8) / 512`. -/
theorem tail_apply (A : S1x1.Idx → EReal) (j : S_.Idx) :
    subf (F := Ideal) (constant (F := Ideal) S_ .f32 0x3F800000#32)
        (Host.divf (F := Ideal) (Host.divf (F := Ideal) (fun i => shapeCast S_ A shapeCasts_S1x1_S_ i)
          (constant (F := Ideal) S_ .f32 0x41000000#32)) (constant (F := Ideal) S_ .f32 0x44000000#32)) j
      = Cert.ApSpec.finish (A (ix2 0 0)) := by
  show Cert.ApSpec.finish (shapeCast S_ A shapeCasts_S1x1_S_ j) = _
  congr 1
  exact shapeCast_apply _ _ j (ix2 0 0) (by
    have hj : j = fun a => a.elim0 := funext fun a => a.elim0
    subst hj; rfl)

variable (m : (ℓ : Loc nD τ sig) → Buf (Elt Ideal) ℓ)

/-- After the host lines the final scalar is `1 - (s / 8) / 512` of the result array's entry `s`. -/
theorem Wfin_v4_apply (c : Dev nD) (j : S_.Idx) :
    Wfin (F := Ideal) m c (Proc.devRef .tc main_v4) j
      = Cert.ApSpec.finish ((dats (F := Ideal) m 0 c).arrAt 2 cfg0.N (ix2 0 0)) := by
  have h : (Wfin (F := Ideal) m c (Proc.devRef .tc main_v4) : FVec Ideal S_ .f32)
      = subf (F := Ideal) (constant (F := Ideal) S_ .f32 0x3F800000#32)
          (Host.divf (F := Ideal) (Host.divf (F := Ideal) (fun i => shapeCast S_ (Wexit (F := Ideal) m c (Proc.devRef .tc main_v0) : S1x1.Idx → EReal) shapeCasts_S1x1_S_ i)
            (constant (F := Ideal) S_ .f32 0x41000000#32)) (constant (F := Ideal) S_ .f32 0x44000000#32)) := by
    unfold Wfin
    simp only [List.flatten_cons, List.flatten_nil, List.append_nil, hostOps1]
    after_results
    rfl
  rw [h, Wexit_v0]
  exact tail_apply _ j

end Cert.KernelIdeal.Hand

end
-- ==== Proof.KiValue.lean ====
/-
  What the body's stores leave, as values: at every grid point the scratch and the result's staging buffer both end
  with the class's step — the class's sum of ratios added to the running total — over the zero the body stored first
  (first point) or over what the scratch held (later points). Each of the four read-backs is the last covering
  store's payload, with the loads of whole buffers read as the buffers' contents.
-/
import proofs.«176333_j50379966382605_2_alg».proof.Proof.KiFrame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

theorem hz : (![0, 0] : Fin 2 → Nat) = fun _ => 0 := funext fun a => by fin_cases a <;> rfl

/-- The class's step as one term over the loaded rows, the loaded matrix and the running total. -/
abbrev step (i : grid0.Coords) (x1 : Vec F S8x128 .f32) (x2 : Vec F S512x128 .f32) (xs : Vec F S1x1 .f32) : Vec F S1x1 .f32 :=
  k0_pay2 (k0_pay4 i x1 x2) (k0_pay5 (F := F)) (k0_pay6 x1) xs

/-- At the first point the scratch ends with the class's step over the zero the body stored first. -/
theorem scrFirst_eq (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) :
    scrFirst c i arg1 harg1 arg2 harg2 arg3 harg3 arg4 harg4 hc x1 x2 = step i x1 x2 (k0_pay1 (F := F)) := by
  unfold scrFirst
  rw [View.read_writes_junk_eq_canon]
  unfold runFirst
  dsimp only
  sl_unfold_words
  rw [View.canon_cons_unit_zero (S := S1x1) hz, View.readCov_unit_zero (S := S1x1) _ hz]
  simp only [View.readAt_eq_ld, harg1.read_unread, harg2.read_unread, View.ld_unit_zero (S := S8x128) hz,
    View.ld_unit_zero (S := S512x128) hz]

/-- At the first point the result's staging buffer ends with what the scratch ends with: the body stores into it
    what it loads back from the scratch. -/
theorem outFirst_eq (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : isFirst i) (x1 : Vec F S8x128 .f32) (x2 : Vec F S512x128 .f32) :
    outFirst c i arg1 harg1 arg2 harg2 arg3 harg3 arg4 harg4 hc x1 x2 = step i x1 x2 (k0_pay1 (F := F)) := by
  unfold outFirst
  rw [View.read_writes_junk_eq_canon]
  unfold runFirst
  dsimp only
  sl_unfold_words
  rw [View.canon_unit_zero (S := S1x1) hz, View.readCov_cons_toLoadRect, View.readCov_unit_zero (S := S1x1) _ hz]
  simp only [View.readAt_eq_ld, harg1.read_unread, harg2.read_unread, View.ld_unit_zero (S := S8x128) hz,
    View.ld_unit_zero (S := S512x128) hz]

/-- At a later point the scratch ends with the class's step over what it held. -/
theorem scrLater_eq (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) :
    scrLater c i arg1 harg1 arg2 harg2 arg3 harg3 arg4 harg4 hc x1 x2 xs = step i x1 x2 xs := by
  unfold scrLater
  rw [View.read_writes_junk_eq_canon]
  unfold runLater
  dsimp only
  sl_unfold_words
  rw [View.canon_unit_zero (S := S1x1) hz]
  simp only [View.readAt_eq_ld, harg1.read_unread, harg2.read_unread, harg4.read_unread,
    View.ld_unit_zero (S := S8x128) hz, View.ld_unit_zero (S := S512x128) hz, View.ld_unit_zero (S := S1x1) hz]

/-- At a later point the result's staging buffer ends with what the scratch ends with. -/
theorem outLater_eq (c : Dev nD) (i : grid0.Coords) (arg1 : Memref sig .tc .vmem S8x128 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S1x1 .f32) (harg4 : arg4.IsWhole)
    (hc : ¬isFirst i) (x1 : Vec F S8x128 .f32) (x2 : Vec F S512x128 .f32) (xs : Vec F S1x1 .f32) :
    outLater c i arg1 harg1 arg2 harg2 arg3 harg3 arg4 harg4 hc x1 x2 xs = step i x1 x2 xs := by
  unfold outLater
  rw [View.read_writes_junk_eq_canon]
  unfold runLater
  dsimp only
  sl_unfold_words
  rw [View.canon_unit_zero (S := S1x1) hz, View.readCov_unit_zero (S := S1x1) _ hz]
  simp only [View.readAt_eq_ld, harg1.read_unread, harg2.read_unread, harg4.read_unread,
    View.ld_unit_zero (S := S8x128) hz, View.ld_unit_zero (S := S512x128) hz, View.ld_unit_zero (S := S1x1) hz]

end Cert.KernelIdeal.Hand

end
-- ==== Proof.LibIdealRead.lean ====
/-
  General facts used to read a kernel's values at an index, at the exact (extended-real) reading of the floats.

  * A rank-3 array summed along its last axis, read at (i, j), is the sum over k of its entries at (i, j, k).
  * A matrix x : [a, c] given a unit middle axis ([a, 1, c]) and repeated along it to [a, b, c] reads, at (i, j, k),
    the entry x (i, k).
  * The 0/1 word of "two small numbers differ", widened to 32 bits and converted to a float, is the number 0 when they
    are equal and 1 when they are not.
  * Words of small numbers add and multiply as the numbers do.
  * The clipped sigmoid's chain of pointwise operations, read at an index, as one function of the entry.
-/
import Idealize.ShloMosaic.PureOps.Ideal
import Idealize.ShloMosaic.PureOps.Ideal.Laws
import Idealize.ShloMosaic.Lib.ValueIdx
import Idealize.ShloMosaic.Lib.Affine
import Idealize.ShloMosaic.Lib.Pipeline.Value

noncomputable section

open scoped BigOperators

namespace Cert.KernelPayLib

open Idealize.ShloMosaic Idealize.ShloMosaic.ValueIdx

/-- Sum over the last axis of an a × b × c array, at (i, j). -/
theorem add_last3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src
      (funext fun ax => Fin.ext (by match ax with | ⟨0, _⟩ => rfl | ⟨1, _⟩ => rfl | ⟨2, _⟩ => rfl)))

variable {α : Type}

/-- `x : [a, c]` viewed `[a, 1, c]` and repeated to `[a, b, c]`, at `(i, j, k)`, is `x (i, k)`. -/
theorem middle_apply {a b c : ℕ} (x : (⟨2, ![a, c]⟩ : Shape).Idx → α)
    (h1 : (⟨2, ![a, c]⟩ : Shape).ShapeCasts ⟨3, ![a, 1, c]⟩)
    (h2 : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h1) h2 (ix3 i j k) = x (ix2 i k) := by
  refine (broadcastTo_apply _ h2 (ix3 i j k) (ix3 i ⟨0, Nat.one_pos⟩ k) (fun d => ?_)).trans
    (shapeCast_apply x h1 (ix3 i ⟨0, Nat.one_pos⟩ k) (ix2 i k) ?_)
  · match d with
    | ⟨0, _⟩ =>
      show i.val = if a = 1 then 0 else i.val
      split
      · have := i.isLt; omega
      · rfl
    | ⟨1, _⟩ =>
      show 0 = if (1 : ℕ) = 1 then 0 else j.val
      rw [if_pos rfl]
    | ⟨2, _⟩ =>
      show k.val = if c = 1 then 0 else k.val
      split
      · have := k.isLt; omega
      · rfl
  · rw [Shape.rowMajor_val_two, Shape.rowMajor_val_three]
    show i.val * c + k.val = (i.val * 1 + 0) * c + k.val
    rw [Nat.mul_one, Nat.add_zero]

/-- The word of `8 n + j`, computed as the kernel does: the word of `n` times the word 8, plus the word of `j`. -/
theorem addi_muli_ofNat (n j : ℕ) :
    IntOp.addi (IntOp.muli (BitVec.ofNat 32 n) 8#32) (BitVec.ofNat 32 j) = BitVec.ofNat 32 (8 * n + j) := by
  unfold IntOp.addi IntOp.muli
  rw [show (8#32 : BitVec 32) = BitVec.ofNat 32 8 from rfl, ← BitVec.ofNat_mul, ← BitVec.ofNat_add, Nat.mul_comm]

/-- "The words of k and m differ" as a float: 0 when m = k, 1 otherwise, for numbers below 2^32. -/
theorem mask_word (k m : ℕ) (hk : k < 2 ^ 32) (hm : m < 2 ^ 32) :
    (FloatOps.sitofp (F := Ideal) .f32 ((IntOp.cmpi .ne (BitVec.ofNat 32 k) (BitVec.ofNat 32 m)).setWidth 32) : EReal)
      = if m = k then 0 else 1 := by
  show ((((IntOp.cmpi .ne (BitVec.ofNat 32 k) (BitVec.ofNat 32 m)).setWidth 32).toInt : ℝ) : EReal) = _
  by_cases h : m = k
  · subst h
    have e : IntOp.cmpi .ne (BitVec.ofNat 32 m) (BitVec.ofNat 32 m) = 0#1 :=
      eq_zero_of_ne_one (fun h1 => (IntOp.cmpi_ne.1 h1) rfl)
    rw [e, if_pos rfl]
    simp
  · have e : IntOp.cmpi .ne (BitVec.ofNat 32 k) (BitVec.ofNat 32 m) = 1#1 := by
      rw [IntOp.cmpi_ne]
      intro e
      apply h
      have := congrArg BitVec.toNat e
      rw [BitVec.toNat_ofNat, BitVec.toNat_ofNat] at this
      omega
    rw [e, if_neg h]
    simp

/-- A mask built from two integer arrays whose entries at an index are the words of `k` and `m`: "they differ", widened
    and converted to a float, reads 0 there when m = k and 1 otherwise. -/
theorem mask_apply {s : Shape} (a b : IVec s 32) (h : 1 < 32) (i : s.Idx) (k m : ℕ) (hk : k < 2 ^ 32) (hm : m < 2 ^ 32)
    (ha : a i = BitVec.ofNat 32 k) (hb : b i = BitVec.ofNat 32 m) :
    (sitofp .f32 (extui 32 (cmpi .ne a b) h) : FVec Ideal s .f32) i = if m = k then 0 else 1 := by
  show FloatOps.sitofp (F := Ideal) .f32 ((IntOp.cmpi .ne (a i) (b i)).setWidth 32) = _
  rw [ha, hb]
  exact mask_word k m hk hm

/-- The clipped sigmoid at temperature 0.01, as the programs compute it from an entry `x`. -/
def tsigW (x : EReal) : EReal :=
  Ideal.div (Ideal.ofBits .f32 0x3F800000#32)
    (Ideal.ofBits .f32 0x3F800000#32 + Ideal.exp (min (Ideal.ofBits .f32 0x42480000#32)
      (max (Ideal.ofBits .f32 0xC2480000#32) (Ideal.div (-x) (Ideal.ofBits .f32 0x3C23D70A#32)))))

/-- The chain `1 / (1 + exp (min 50 (max (-50) ((0 - v) / 0.01))))` of pointwise operations on an array, read at an index:
    the clipped sigmoid of the entry. `0 - x` is `-x` on the extended reals. -/
theorem tsig_chain_apply {s : Shape} (v : FVec Ideal s .f32) (i : s.Idx) :
    divf (broadcast s (Scalar.ofBits (F := Ideal) .f32 0x3F800000#32))
      (addf (broadcast s (Scalar.ofBits (F := Ideal) .f32 0x3F800000#32))
        (exp (minimumf (broadcast s (Scalar.ofBits (F := Ideal) .f32 0x42480000#32))
          (maximumf (broadcast s (Scalar.ofBits (F := Ideal) .f32 0xC2480000#32))
            (divf (subf (broadcast s (Scalar.ofBits (F := Ideal) .f32 0x00000000#32)) v)
              (broadcast s (Scalar.ofBits (F := Ideal) .f32 0x3C23D70A#32))))))) i = tsigW (v i) := by
  show Ideal.div (Ideal.ofBits .f32 0x3F800000#32)
    (Ideal.ofBits .f32 0x3F800000#32 + Ideal.exp (min (Ideal.ofBits .f32 0x42480000#32)
      (max (Ideal.ofBits .f32 0xC2480000#32)
        (Ideal.div (Ideal.ofBits .f32 0x00000000#32 - v i) (Ideal.ofBits .f32 0x3C23D70A#32))))) = _
  rw [Ideal.ofBits_zero_f32, zero_sub]
  rfl

end Cert.KernelPayLib

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibOuterLayout.lean ====
/-
  Two broadcast layouts read at coordinates, at any element type.

  * A matrix `x : [a, b]` given a trailing unit axis (`[a, b, 1]`) and repeated along it to `[a, b, c]` reads, at
    `(i, j, k)`, the entry `x (i, j)`: the new axis only repeats.
  * A matrix `w : [b, c]` given a leading unit axis (`[1, b, c]`) and repeated along it to `[a, b, c]` reads, at
    `(i, j, k)`, the entry `w (j, k)`.

  Both are the row-major position of a reshape that adds a unit axis (the position does not change) followed by
  a broadcast that copies along that axis.
-/
import Idealize.ShloMosaic.Lib.ValueIdx
import Idealize.ShloMosaic.Lib.Pipeline.Value

namespace Idealize.ShloMosaic.OuterLayout

open Idealize.ShloMosaic Idealize.ShloMosaic.ValueIdx

variable {α : Type}

/-- `x : [a, b]` viewed `[a, b, 1]` and repeated to `[a, b, c]`, at `(i, j, k)`, is `x (i, j)`. -/
theorem trailing_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) := by
  refine (broadcastTo_apply _ h2 (ix3 i j k) (ix3 i j ⟨0, Nat.one_pos⟩) (fun d => ?_)).trans
    (shapeCast_apply x h1 (ix3 i j ⟨0, Nat.one_pos⟩) (ix2 i j) ?_)
  · match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show 0 = if (1 : ℕ) = 1 then 0 else k.val
      rw [if_pos rfl]
  · rw [Shape.rowMajor_val_two, Shape.rowMajor_val_three]
    show i.val * b + j.val = (i.val * b + j.val) * 1 + 0
    omega

/-- `w : [b, c]` viewed `[1, b, c]` and repeated to `[a, b, c]`, at `(i, j, k)`, is `w (j, k)`. -/
theorem leading_apply {a b c : ℕ} (w : (⟨2, ![b, c]⟩ : Shape).Idx → α)
    (h1 : (⟨2, ![b, c]⟩ : Shape).ShapeCasts ⟨3, ![1, b, c]⟩)
    (h2 : (⟨3, ![1, b, c]⟩ : Shape).Broadcasts ⟨3, ![a, b, c]⟩) (i : Fin a) (j : Fin b) (k : Fin c) :
    broadcastTo ⟨3, ![a, b, c]⟩ (shapeCast ⟨3, ![1, b, c]⟩ w h1) h2 (ix3 i j k) = w (ix2 j k) := by
  refine (broadcastTo_apply _ h2 (ix3 i j k) (ix3 ⟨0, Nat.one_pos⟩ j k) (fun d => ?_)).trans
    (shapeCast_apply w h1 (ix3 ⟨0, Nat.one_pos⟩ j k) (ix2 j k) ?_)
  · match d with
    | ⟨0, _⟩ =>
      show 0 = if (1 : ℕ) = 1 then 0 else i.val
      rw [if_pos rfl]
    | ⟨1, _⟩ =>
      show j.val = if b = 1 then 0 else j.val
      split
      · have := j.isLt; omega
      · rfl
    | ⟨2, _⟩ =>
      show k.val = if c = 1 then 0 else k.val
      split
      · have := k.isLt; omega
      · rfl
  · rw [Shape.rowMajor_val_two, Shape.rowMajor_val_three]
    show j.val * c + k.val = (0 * b + j.val) * c + k.val
    rw [Nat.zero_mul, Nat.zero_add]

end Idealize.ShloMosaic.OuterLayout
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPay.lean ====
/-
  The kernel's arithmetic for one class, read at an index, at the exact (extended-real) reading of the floats.

  For class c the kernel holds the class's 8 rows x1 = P[8c .. 8c+7, :] and the whole matrix x2 = P. Its pure values are:
  the 8 x 8 block x1 · x1ᵀ of similarities inside the class; the 8 x 512 block x1 · x2ᵀ of similarities against every
  row; from these, for each entry (t, j) of the class's diagonal block, the smoothed rank of column 8c + j in row
  8c + t among all rows (clipped sigmoid of the differences, masked off the column itself, summed over the 512 columns,
  plus one) and among the class's rows (the same over the 8 columns of the class); the quotient of the two ranks summed
  over the 64 entries; that sum added to the running total. Each lemma below reads one of these values at explicit
  coordinates; the last two say what the kernel stores: the running total plus the class's sum of ratios, and, before
  the first class, zero. Every sum is matched term by term; the only laws used are `0 - x = -x` and `0 + x = x`; no entry
  needs to be finite.
-/
import proofs.«176333_j50379966382605_2_alg».proof.Proof.Gen.KernelIdeal.Skeleton
import proofs.«176333_j50379966382605_2_alg».proof.Proof.ApSpec
import proofs.«176333_j50379966382605_2_alg».proof.Proof.LibIdealRead
import proofs.«176333_j50379966382605_2_alg».proof.Proof.LibMatmulNT
import proofs.«176333_j50379966382605_2_alg».proof.Proof.LibOuterLayout
import proofs.«176333_j50379966382605_2_alg».proof.Proof.LibAxisReduce
import proofs.«176333_j50379966382605_2_alg».proof.Proof.LibColumn

noncomputable section

open scoped BigOperators

namespace Cert.KernelPay

open Idealize.ShloMosaic Idealize.ShloMosaic.ValueIdx Cert.KernelIdeal Cert.KernelIdeal.Gen Cert.ApSpec

/-- The spelling of the clipped sigmoid used for the pointwise chain is the specification's. -/
theorem tsigW_eq : Cert.KernelPayLib.tsigW = tsig := rfl

/-- The 8 x 8 block of a class's rows against themselves, read at (t, j): the inner product of rows t and j of the
    block (a matrix product with the second operand transposed, into a zero accumulator). -/
theorem pay3_apply (v1 : Vec Ideal S8x128 .f32) (t j : Fin 8) :
    k0_pay3 (F := Ideal) v1 (ix2 t j) = ∑ d : Fin 128, v1 (ix2 t d) * v1 (ix2 j d) := by
  unfold k0_pay3
  exact Cert.Gram.matmul_nt_zero_apply _ (some .fp32) v1 v1 t j

/-- The difference block inside the class, read at (t, j, k): entry (t, k) of the 8 x 8 block minus entry (t, j). -/
theorem pay6_apply (v1 : Vec Ideal S8x128 .f32) (t j k : Fin 8) :
    k0_pay6 (F := Ideal) v1 (ix3 t j k)
      = k0_pay3 (F := Ideal) v1 (ix2 t k) - k0_pay3 (F := Ideal) v1 (ix2 t j) := by
  unfold k0_pay6
  refine (subf_apply _ _ _).trans ?_
  exact congrArg₂ (· - ·)
    (Cert.KernelPayLib.middle_apply (k0_pay3 (F := Ideal) v1) _ _ t j k)
    (Idealize.ShloMosaic.OuterLayout.trailing_apply (k0_pay3 (F := Ideal) v1) _ _ t j k)

/-- The mask inside the class, read at (t, j, k): 0 when k = j and 1 otherwise. -/
theorem pay5_apply (t j k : Fin 8) :
    k0_pay5 (F := Ideal) (ix3 t j k) = offdiag j k := by
  unfold k0_pay5 offdiag
  refine (Cert.KernelPayLib.mask_apply _ _ _ (ix3 t j k) k.val j.val (by omega) (by omega)
    (iota_single_apply _ _ _ _ _ _) (iota_single_apply _ _ _ _ _ _)).trans ?_
  exact if_congr Fin.val_inj rfl rfl

/-- The global rank block, read at (t, j): the smoothed rank of column 8c + j in row 8c + t among all 512 rows.
    The product of the class's rows with all rows gives the similarities; the mask leaves out column 8c + j itself
    (8c + j is far below 2^31, so the 32-bit sum does not wrap); the lane sum runs over all 512 columns. -/
theorem pay4_apply (P : Fin 512 → Fin 128 → EReal) (i : grid0.Coords) (c : Fin 64) (hc : (i 0).val = c.val)
    (x1 : Vec Ideal S8x128 .f32) (x2 : Vec Ideal S512x128 .f32)
    (h1 : ∀ (t : Fin 8) (d : Fin 128), x1 (ix2 t d) = P (row c t) d)
    (h2 : ∀ (r : Fin 512) (d : Fin 128), x2 (ix2 r d) = P r d) (t j : Fin 8) :
    k0_pay4 (F := Ideal) i x1 x2 (ix2 t j) = rkAll P (row c t) (row c j) := by
  unfold k0_pay4 rkAll
  refine (addf_apply _ _ _).trans ?_
  refine congrArg₂ (· + ·) ?_ rfl
  refine (Cert.KernelPayLib.add_last3_apply _ _ _ _ _ t j).trans ?_
  refine Finset.sum_congr rfl fun k _ => ?_
  refine (mulf_apply _ _ _).trans ?_
  refine congrArg₂ (· * ·) ?_ ?_
  · refine ((Cert.KernelPayLib.tsig_chain_apply _ _).trans (congrFun tsigW_eq _)).trans (congrArg tsig ?_)
    refine (subf_apply _ _ _).trans ?_
    refine congrArg₂ (· - ·) ?_ ?_
    · refine (Cert.KernelPayLib.middle_apply _ _ _ t j k).trans ?_
      refine (Cert.Gram.matmul_nt_zero_apply _ (some .fp32) x1 x2 t k).trans ?_
      exact Finset.sum_congr rfl fun d _ => by rw [h1, h2]
    · refine (Idealize.ShloMosaic.OuterLayout.trailing_apply _ _ _ t j k).trans ?_
      refine (pay3_apply x1 t j).trans ?_
      exact Finset.sum_congr rfl fun d _ => by rw [h1, h1]
  · refine (Cert.KernelPayLib.mask_apply _ _ _ (ix3 t j k) k.val (8 * c.val + j.val)
      (by have := k.isLt; omega) (by have := c.isLt; have := j.isLt; omega)
      (iota_single_apply _ _ _ _ _ _) ?_).trans ?_
    · show IntOp.addi (IntOp.muli (BitVec.ofNat 32 (i 0).val) 8#32) (iota .tc S8x8x512 32 [1] _ (ix3 t j k)) = _
      rw [iota_single_apply, hc]
      exact Cert.KernelPayLib.addi_muli_ofNat c.val j.val
    · unfold offdiag
      exact if_congr (by rw [Fin.ext_iff]; rfl) rfl rfl

/-- The class's step on the running total, over any three blocks that read as the global ranks, the mask and the
    differences: the clipped sigmoid of each difference, masked and summed along the last axis, plus one, is the rank
    inside the class; divided by the global rank it is the ratio; the two remaining sums run over the 8 x 8 block;
    the result is added to the running total. -/
theorem pay2_apply (P : Fin 512 → Fin 128 → EReal) (c : Fin 64)
    (v33 : FVec Ideal S8x8 .f32) (v38 v43 : FVec Ideal S8x8x8 .f32) (acc : Vec Ideal S1x1 .f32)
    (h33 : ∀ t j : Fin 8, v33 (ix2 t j) = rkAll P (row c t) (row c j))
    (h38 : ∀ t j k : Fin 8, v38 (ix3 t j k) = offdiag j k)
    (h43 : ∀ t j k : Fin 8, v43 (ix3 t j k) = sim P (row c t) (row c k) - sim P (row c t) (row c j))
    (j : S1x1.Idx) :
    k0_pay2 (F := Ideal) v33 v38 v43 acc j = acc j + classSum P c := by
  obtain ⟨p, q, rfl⟩ : ∃ (p : Fin 1) (q : Fin 1), j = ix2 p q := ⟨j 0, j 1, eq_ix2 j⟩
  unfold k0_pay2 classSum
  refine (congrFun (shapeCast_self _ _) _).trans ?_
  refine (addf_apply _ _ _).trans ?_
  refine congrArg₂ (· + ·) rfl ?_
  refine (Cert.LibColumn.shapeCast_a_a1_apply _ _ p q).trans ?_
  refine (Cert.LibAxisReduce.add_rows_apply _ _ _ _ _ p).trans ?_
  refine Finset.sum_congr rfl fun t _ => ?_
  refine (Cert.LibColumn.shapeCast_a_a1_apply _ _ t p).trans ?_
  refine (Cert.LibAxisReduce.add_cols_apply _ _ _ _ _ t).trans ?_
  refine Finset.sum_congr rfl fun jj _ => ?_
  unfold ratio
  refine (divf_apply _ _ _).trans ?_
  refine congrArg₂ Ideal.div ?_ (h33 t jj)
  unfold rkPos
  refine (addf_apply _ _ _).trans ?_
  refine congrArg₂ (· + ·) ?_ rfl
  refine (Cert.KernelPayLib.add_last3_apply _ _ _ _ _ t jj).trans ?_
  refine Finset.sum_congr rfl fun k _ => ?_
  refine (mulf_apply _ _ _).trans ?_
  refine congrArg₂ (· * ·) ?_ (h38 t jj k)
  exact ((Cert.KernelPayLib.tsig_chain_apply _ _).trans (congrFun tsigW_eq _)).trans (congrArg tsig (h43 t jj k))

/-- One class's step: with the class's 8 rows and the whole matrix loaded, what the kernel stores back into the
    running total is the total plus the class's sum of ratios. -/
theorem class_step (P : Fin 512 → Fin 128 → EReal) (i : grid0.Coords) (c : Fin 64) (hc : (i 0).val = c.val)
    (x1 : Vec Ideal S8x128 .f32) (x2 : Vec Ideal S512x128 .f32) (acc : Vec Ideal S1x1 .f32)
    (h1 : ∀ (t : Fin 8) (d : Fin 128), x1 (ix2 t d) = P (row c t) d)
    (h2 : ∀ (r : Fin 512) (d : Fin 128), x2 (ix2 r d) = P r d) (j : S1x1.Idx) :
    k0_pay2 (F := Ideal) (k0_pay4 i x1 x2) (k0_pay5 (F := Ideal)) (k0_pay6 x1) acc j = acc j + classSum P c :=
  pay2_apply P c _ _ _ acc (pay4_apply P i c hc x1 x2 h1 h2) pay5_apply
    (fun t j k => (pay6_apply x1 t j k).trans (congrArg₂ (· - ·)
      ((pay3_apply x1 t k).trans (Finset.sum_congr rfl fun d _ => by rw [h1, h1]))
      ((pay3_apply x1 t j).trans (Finset.sum_congr rfl fun d _ => by rw [h1, h1])))) j

/-- The value the first class stores before its step: the zero word, the number 0. -/
theorem zero_start (j : S1x1.Idx) : k0_pay1 (F := Ideal) j = 0 := by
  unfold k0_pay1
  refine (congrFun (shapeCast_self _ _) _).trans ?_
  exact Ideal.ofBits_zero_f32

end Cert.KernelPay

end
-- ==== Proof.KiTotal.lean ====
/-
  The running total over the grid, and the result array after the region.

  Point t's two input blocks are rows 8t .. 8t+7 of the input array and the whole array, so the class's step at point
  t adds class t's sum of ratios to the running total. By induction on the point, after point t the scratch and the
  result's staging buffer both hold the sum of the first t + 1 classes' sums; the first point starts from the zero the
  body stores. The result array is written back once, after the last point, from the staging buffer, and its one
  block is the whole array: it ends holding the sum over all 64 classes.
-/
import proofs.«176333_j50379966382605_2_alg».proof.Proof.KiValue
import proofs.«176333_j50379966382605_2_alg».proof.Proof.KernelPay

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-! ## The grid point and the two input blocks, in coordinates -/

/-- The grid has 64 points. -/
theorem lt64 (t : Fin cfg0.N) : t.val < 64 := by have h : cfg0.N = 64 := N_0; have := t.isLt; omega

/-- The grid coordinate of point `t` is `t`. -/
theorem coord0 : ∀ t : Fin cfg0.N, ((grid0.coords t) 0).val = t.val :=
  (by decide +kernel : ∀ t : Fin grid0.N, ((grid0.coords t) 0).val = t.val)

/-- Window 0's block at point `t` is block `(t, 0)` of the array; window 1's is block `(0, 0)`. -/
theorem index0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)
theorem index1 : ∀ t : Fin cfg0.N, win0_1.index t (0 : Fin 2) = 0 ∧ win0_1.index t 1 = 0 :=
  (by decide +kernel : ∀ t : Fin grid0.N, win0_1.index t (0 : Fin 2) = 0 ∧ win0_1.index t 1 = 0)

section Blocks
variable (m : (ℓ : Loc nD τ sig) → Buf (Elt F) ℓ)

/-- The class's rows: window 0's block at point `t` reads, at `(r, d)`, the input array at `(8 t + r, d)`. -/
theorem iblk0_apply (c : Dev nD) (t : Fin cfg0.N) (r : Fin 8) (d : Fin 128) (h : 8 * t.val + r.val < 512) :
    (iblk m c 0 t : Vec F S8x128 .f32) (ix2 r d) = m ((c : Thread nD τ).loc main_arg0) (ix2 ⟨8 * t.val + r.val, h⟩ d) := by
  have hi := index0 t
  unfold iblk
  rw [View.read_apply]
  show V m c main_arg0 _ = m (c.tc.loc main_arg0) _
  unfold V
  congr 1
  funext a
  apply Fin.ext
  match a with
  | ⟨0, _⟩ => show win0_0.index t 0 * 8 + 1 * r.val = 8 * t.val + r.val; rw [hi.1]; omega
  | ⟨1, _⟩ => show win0_0.index t 1 * 128 + 1 * d.val = d.val; rw [hi.2]; omega

/-- The whole matrix: window 1's block at any point reads, at `(r, d)`, the input array at `(r, d)`. -/
theorem iblk1_apply (c : Dev nD) (t : Fin cfg0.N) (r : Fin 512) (d : Fin 128) :
    (iblk m c 1 t : Vec F S512x128 .f32) (ix2 r d) = m ((c : Thread nD τ).loc main_arg0) (ix2 r d) := by
  have hi := index1 t
  unfold iblk
  rw [View.read_apply]
  show V m c main_arg0 _ = m (c.tc.loc main_arg0) _
  unfold V
  congr 1
  funext a
  apply Fin.ext
  match a with
  | ⟨0, _⟩ => show win0_1.index t 0 * 512 + 1 * r.val = r.val; rw [hi.1]; omega
  | ⟨1, _⟩ => show win0_1.index t 1 * 128 + 1 * d.val = d.val; rw [hi.2]; omega

end Blocks

/-! ## Both buffers, point by point, as the class's step -/

section Steps
variable (m : (ℓ : Loc nD τ sig) → Buf (Elt F) ℓ)

/-- After the first point both buffers hold the first class's step over the zero. -/
theorem first_val (c : Dev nD) (t : Fin cfg0.N) (h0 : t.val = 0) (j : S1x1.Idx) :
    (outsAt m c t.val t.isLt).1 j = step (grid0.coords t) (iblk m c 0 t) (iblk m c 1 t) (k0_pay1 (F := F)) j
    ∧ (outsAt m c t.val t.isLt).2 j = step (grid0.coords t) (iblk m c 0 t) (iblk m c 1 t) (k0_pay1 (F := F)) j := by
  rw [outsAt_first m c t h0]
  exact ⟨congrFun (outFirst_eq c (grid0.coords t) (ms0 t) (hs0 t) (ms1 t) (hs1 t) (ms2 t) (hs2 t) scM (Memref.isWhole_whole _)
      ((isFirst_iff t).mpr h0) (iblk m c 0 t) (iblk m c 1 t)) j,
    congrFun (scrFirst_eq c (grid0.coords t) (ms0 t) (hs0 t) (ms1 t) (hs1 t) (ms2 t) (hs2 t) scM (Memref.isWhole_whole _)
      ((isFirst_iff t).mpr h0) (iblk m c 0 t) (iblk m c 1 t)) j⟩

/-- After a later point both buffers hold the class's step over what the scratch held after the point before. -/
theorem later_val (c : Dev nD) (t : Fin cfg0.N) (h0 : ¬t.val = 0) (j : S1x1.Idx) :
    (outsAt m c t.val t.isLt).1 j
      = step (grid0.coords t) (iblk m c 0 t) (iblk m c 1 t) (outsAt m c (t.val - 1) (Nat.lt_of_le_of_lt (Nat.sub_le _ _) t.isLt)).2 j
    ∧ (outsAt m c t.val t.isLt).2 j
      = step (grid0.coords t) (iblk m c 0 t) (iblk m c 1 t) (outsAt m c (t.val - 1) (Nat.lt_of_le_of_lt (Nat.sub_le _ _) t.isLt)).2 j := by
  rw [outsAt_later m c t h0]
  exact ⟨congrFun (outLater_eq c (grid0.coords t) (ms0 t) (hs0 t) (ms1 t) (hs1 t) (ms2 t) (hs2 t) scM (Memref.isWhole_whole _)
      (fun h => h0 ((isFirst_iff t).mp h)) (iblk m c 0 t) (iblk m c 1 t) _) j,
    congrFun (scrLater_eq c (grid0.coords t) (ms0 t) (hs0 t) (ms1 t) (hs1 t) (ms2 t) (hs2 t) scM (Memref.isWhole_whole _)
      (fun h => h0 ((isFirst_iff t).mp h)) (iblk m c 0 t) (iblk m c 1 t) _) j⟩

end Steps

/-! ## At the exact reading: the running total -/

section Total
variable (m : (ℓ : Loc nD τ sig) → Buf (Elt Ideal) ℓ)

/-- The input array as a 512 x 128 matrix of extended reals. -/
def matOf (c : Dev nD) (a : Buf (Elt Ideal) ((c : Thread nD τ).loc main_arg0)) : Fin 512 → Fin 128 → EReal :=
  fun r d => a (ix2 r d)

/-- The class's step at point `t`, over any running total: the total plus class `t`'s sum of ratios. -/
theorem stepAt (c : Dev nD) (t : Fin cfg0.N) (xs : Vec Ideal S1x1 .f32) (j : S1x1.Idx) :
    step (grid0.coords t) (iblk m c 0 t) (iblk m c 1 t) xs j
      = xs j + Cert.ApSpec.classSum (matOf c (m ((c : Thread nD τ).loc main_arg0))) ⟨t.val, lt64 t⟩ :=
  Cert.KernelPay.class_step (matOf c (m ((c : Thread nD τ).loc main_arg0))) (grid0.coords t) ⟨t.val, lt64 t⟩ (coord0 t)
    (iblk m c 0 t) (iblk m c 1 t) xs
    (fun r d => iblk0_apply m c t r d (by have := lt64 t; have := r.isLt; omega))
    (fun r d => iblk1_apply m c t r d) j

/-- After point `t` both buffers hold the sum of the first `t + 1` classes' sums. -/
theorem outsAt_eq (c : Dev nD) : ∀ (t : ℕ) (ht : t < cfg0.N) (j : S1x1.Idx),
    (outsAt m c t ht).1 j = Cert.ApSpec.upTo (matOf c (m ((c : Thread nD τ).loc main_arg0))) (t + 1)
    ∧ (outsAt m c t ht).2 j = Cert.ApSpec.upTo (matOf c (m ((c : Thread nD τ).loc main_arg0))) (t + 1)
  | 0, ht, j => by
    have h := first_val m c ⟨0, ht⟩ rfl j
    have hv : step (grid0.coords ⟨0, ht⟩) (iblk m c 0 ⟨0, ht⟩) (iblk m c 1 ⟨0, ht⟩) (k0_pay1 (F := Ideal)) j
        = Cert.ApSpec.upTo (matOf c (m ((c : Thread nD τ).loc main_arg0))) (0 + 1) := by
      rw [stepAt m c ⟨0, ht⟩ (k0_pay1 (F := Ideal)) j, Cert.KernelPay.zero_start,
        Cert.ApSpec.upTo_succ _ 0 (by omega), Cert.ApSpec.upTo_zero]
    exact ⟨h.1.trans hv, h.2.trans hv⟩
  | n + 1, ht, j => by
    have h := later_val m c ⟨n + 1, ht⟩ (Nat.succ_ne_zero n) j
    have ih := outsAt_eq c n (Nat.lt_of_succ_lt ht) j
    have hv : step (grid0.coords ⟨n + 1, ht⟩) (iblk m c 0 ⟨n + 1, ht⟩) (iblk m c 1 ⟨n + 1, ht⟩)
        (outsAt m c n (Nat.lt_of_succ_lt ht)).2 j
        = Cert.ApSpec.upTo (matOf c (m ((c : Thread nD τ).loc main_arg0))) (n + 1 + 1) := by
      rw [stepAt m c ⟨n + 1, ht⟩ _ j, ih.2, Cert.ApSpec.upTo_succ _ (n + 1) (lt64 ⟨n + 1, ht⟩)]
    exact ⟨h.1.trans hv, h.2.trans hv⟩

end Total

/-! ## The result array after the region -/

section Final
variable (m : (ℓ : Loc nD τ sig) → Buf (Elt F) ℓ)

/-- The last grid point. -/
abbrev tLast : Fin cfg0.N := ⟨63, by have h : cfg0.N = 64 := N_0; omega⟩

/-- What the result's staging buffer holds after the last point. -/
abbrev lastOut (c : Dev nD) : Buf (Elt F) ((c : Thread nD τ).loc main_v0) := (outsAt m c tLast.val tLast.isLt).1

/-- The one write-back, at the last point, writes it: the result's one block, at zero offsets, is the whole array. -/
theorem flushed_eq (c : Dev nD) (t : Fin cfg0.N) (hf : (cfg0.win 2).flush t = true) :
    (dats m 0 c).flushed 2 t = ((cfg0.win 2).blk t).view.read (Elt F) (lastOut m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after_2]
  have hz' : (fun a => win0_2.index tLast a * main_v0.ty.shape.size a) = fun _ => 0 :=
    funext fun a => by fin_cases a <;> decide +kernel
  exact (Memref.read_access_unit_zero (Elt F) main_v0 hz' (fun a => by rw [congrFun hz' a]; simp) (lastOut m c)).symm

/-- So the result array ends holding what the staging buffer held after the last point. -/
theorem final_out (c : Dev nD) : (dats m 0 c).arrAt 2 cfg0.N = lastOut m c :=
  (dats m 0 c).arrAt_eq_of_cover 2 (lastOut m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

end Final

/-! ## At the exact reading: the result is the total -/

section FinalTotal
variable (m : (ℓ : Loc nD τ sig) → Buf (Elt Ideal) ℓ)

/-- The result array after the region holds, at its one index, the sum of all 64 classes' sums of ratios. -/
theorem final_total (c : Dev nD) (j : S1x1.Idx) :
    ((dats m 0 c).arrAt 2 cfg0.N : Vec Ideal S1x1 .f32) j
      = Cert.ApSpec.total (matOf c (m ((c : Thread nD τ).loc main_arg0))) :=
  (congrFun (final_out m c) j).trans
    (((outsAt_eq m c tLast.val tLast.isLt j).1).trans (Cert.ApSpec.upTo_all _))

end FinalTotal

end Cert.KernelIdeal.Hand

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.RefValueBase.lean ====
/-
  The input buffer as a matrix, and the two 0/1 masks of the reference read at an index.

  The reference builds each mask as 1 - [row = column]: the row and column numbers are 32-bit words of small
  naturals, the test's bit is converted to the number 0 or 1, and the difference from the word of 1.0 is 0 on
  the diagonal and 1 off it.
-/
import proofs.«176333_j50379966382605_2_alg».proof.Proof.Gen.ReferenceIdeal.Read
import proofs.«176333_j50379966382605_2_alg».proof.Proof.ApSpec
import proofs.«176333_j50379966382605_2_alg».proof.Proof.LibRecipDiv

noncomputable section

namespace Cert.RefValue

open Cert.ReferenceIdeal Cert.ReferenceIdeal.Gen Cert.ReferenceIdeal.Read Idealize.ShloMosaic Idealize.ShloMosaic.ValueIdx Cert.ApSpec

/-- The input buffer's contents as a 512 x 128 matrix of extended reals. -/
def matOf (x0 : (⟨S512x128, .f32⟩ : BufTy).Contents (Elt Ideal)) : Fin 512 → Fin 128 → EReal :=
  fun r d => x0 (ix2 r d)

/-- The equality test of the words of two small naturals (the first through an addition of the zero word):
    its bit is set exactly when the naturals are equal. -/
theorem eqBit (a b : ℕ) (ha : a < 2 ^ 31) (hb : b < 2 ^ 31) :
    IntOp.cmpi .eq (IntOp.addi (BitVec.ofNat 32 a) 0#32) (BitVec.ofNat 32 b) = if a = b then 1#1 else 0#1 := by
  have h : IntOp.cmpi .eq (IntOp.addi (BitVec.ofNat 32 a) 0#32) (BitVec.ofNat 32 b) = 1#1 ↔ a = b := by
    rw [IntOp.cmpi_eq]
    unfold IntOp.addi
    rw [BitVec.add_zero]
    constructor
    · intro h
      have := congrArg BitVec.toNat h
      rw [BitVec.toNat_ofNat, BitVec.toNat_ofNat] at this
      omega
    · intro h; rw [h]
  by_cases hab : a = b
  · rw [if_pos hab]; exact h.2 hab
  · rw [if_neg hab]; exact eq_zero_of_ne_one (fun hc => hab (h.1 hc))

/-- The word of 1.0 minus the converted bit of "a = b": 0 when the naturals are equal, 1 otherwise. -/
theorem maskWord (a b : ℕ) (ha : a < 2 ^ 31) (hb : b < 2 ^ 31) :
    FloatOps.subf (FloatOps.ofBits (F := Ideal) .f32 0x3F800000#32)
        (FloatOps.uitofp (F := Ideal) .f32 (IntOp.cmpi .eq (IntOp.addi (BitVec.ofNat 32 a) 0#32) (BitVec.ofNat 32 b)))
      = if a = b then (0 : EReal) else 1 := by
  rw [eqBit a b ha hb]
  show Ideal.ofBits .f32 0x3F800000#32 - (((if a = b then 1#1 else 0#1 : BitVec 1).toNat : ℝ) : EReal) = _
  rw [Cert.LibRecipDiv.ofBits_one_f32]
  by_cases hab : a = b
  · rw [if_pos hab, if_pos hab]
    show (1 : EReal) - (((1 : ℕ) : ℝ) : EReal) = 0
    rw [Nat.cast_one, EReal.coe_one]
    exact EReal.sub_self (by decide) (by decide)
  · rw [if_neg hab, if_neg hab]
    show (1 : EReal) - (((0 : ℕ) : ℝ) : EReal) = 1
    rw [Nat.cast_zero, EReal.coe_zero, sub_zero]

/-- The 512 x 512 mask at (j, k): 0 on the diagonal, 1 off it. -/
theorem mask512_apply (j k : Fin 512) : val_main_v14 (F := Ideal) (ix2 j k) = offdiag j k := by
  rw [val_main_v14_apply, val_main_v13_apply, val_main_cst_apply, val_main_v12_apply, val_main_v11_apply,
    val_main_v10_apply, val_main_v7_apply, val_main_v9_apply, val_main_c_apply, val_main_v8_apply]
  show FloatOps.subf (FloatOps.ofBits (F := Ideal) .f32 0x3F800000#32)
      (FloatOps.uitofp (F := Ideal) .f32 (IntOp.cmpi .eq (IntOp.addi (BitVec.ofNat 32 j.val) 0#32) (BitVec.ofNat 32 k.val))) = _
  rw [maskWord j.val k.val (by have := j.isLt; omega) (by have := k.isLt; omega)]
  unfold offdiag
  exact if_congr Fin.ext_iff.symm rfl rfl

/-- The 8 x 8 mask at (j, k): 0 on the diagonal, 1 off it. -/
theorem mask8_apply (j k : Fin 8) : val_main_v44 (F := Ideal) (ix2 j k) = offdiag j k := by
  rw [val_main_v44_apply, val_main_v43_apply, val_main_cst_8_apply, val_main_v42_apply, val_main_v41_apply,
    val_main_v40_apply, val_main_v37_apply, val_main_v39_apply, val_main_c_7_apply, val_main_v38_apply]
  show FloatOps.subf (FloatOps.ofBits (F := Ideal) .f32 0x3F800000#32)
      (FloatOps.uitofp (F := Ideal) .f32 (IntOp.cmpi .eq (IntOp.addi (BitVec.ofNat 32 j.val) 0#32) (BitVec.ofNat 32 k.val))) = _
  rw [maskWord j.val k.val (by have := j.isLt; omega) (by have := k.isLt; omega)]
  unfold offdiag
  exact if_congr Fin.ext_iff.symm rfl rfl

end Cert.RefValue

end
-- ==== Proof.RefValuePos.lean ====
/-
  The reference's ranking within each class, read one operation at a time.

  The input viewed as 64 classes of 8 rows has row `8 c + i` of the matrix at (c, i); the batched product gives
  the similarities of the rows of one class; the differences, the sigmoid, the 8 x 8 mask and the sum over the
  last axis plus one give the smoothed rank of column j in row i of class c among the rows of the class.
-/
import proofs.«176333_j50379966382605_2_alg».proof.Proof.RefValueBase

noncomputable section

namespace Cert.RefValue

open Cert.ReferenceIdeal Cert.ReferenceIdeal.Gen Cert.ReferenceIdeal.Read Idealize.ShloMosaic Idealize.ShloMosaic.ValueIdx Cert.ApSpec

/-- The input viewed as [64, 8, 128]: entry (c, i, d) is entry (8 c + i, d) of the matrix. -/
theorem idx30 (c : Fin 64) (i : Fin 8) (d : Fin 128) : idx_main_v30 (ix3 c i d) = ix2 (row c i) d :=
  funext fun a => Fin.ext (by
    have hd := d.isLt
    match a with
    | ⟨0, _⟩ => show ((c.val * 8 + i.val) * 128 + d.val) / 128 = 8 * c.val + i.val; omega
    | ⟨1, _⟩ => show ((c.val * 8 + i.val) * 128 + d.val) % 128 = d.val; omega)

/-- The similarities within class c at (i, j): the inner product of rows 8 c + i and 8 c + j. -/
theorem simPos_apply (x0 : (⟨S512x128, .f32⟩ : BufTy).Contents (Elt Ideal)) (c : Fin 64) (i j : Fin 8) :
    val_main_v31 (F := Ideal) x0 (ix3 c i j) = sim (matOf x0) (row c i) (row c j) := by
  rw [val_main_v31_apply]
  unfold sim
  refine Finset.sum_congr rfl fun d _ => ?_
  have e1 : lidx_main_v31 (ix3 c i j) d = ix3 c i d :=
    funext fun a => by match a with | ⟨0, _⟩ => rfl | ⟨1, _⟩ => rfl | ⟨2, _⟩ => rfl
  have e2 : ridx_main_v31 (ix3 c i j) d = ix3 c j d :=
    funext fun a => by match a with | ⟨0, _⟩ => rfl | ⟨1, _⟩ => rfl | ⟨2, _⟩ => rfl
  rw [e1, e2, val_main_v30_apply, val_main_v30_apply, idx30, idx30]
  rfl

/-- The class-side sigmoid array at (c, i, j, k): the clipped sigmoid of the difference of two similarities. -/
theorem sig8_apply (x0 : (⟨S512x128, .f32⟩ : BufTy).Contents (Elt Ideal)) (c : Fin 64) (i j k : Fin 8) :
    val_main_v53 (F := Ideal) x0 (ix4 c i j k)
      = tsig (sim (matOf x0) (row c i) (row c k) - sim (matOf x0) (row c i) (row c j)) := by
  have e4 : idx_main_v32 (idx_main_v34 (ix4 c i j k)) = ix3 c i k :=
    funext fun a => by match a with | ⟨0, _⟩ => rfl | ⟨1, _⟩ => rfl | ⟨2, _⟩ => rfl
  have e5 : idx_main_v33 (idx_main_v35 (ix4 c i j k)) = ix3 c i j :=
    funext fun a => by match a with | ⟨0, _⟩ => rfl | ⟨1, _⟩ => rfl | ⟨2, _⟩ => rfl
  rw [val_main_v53_apply, val_main_v52_apply, val_main_cst_13_apply, val_main_v51_apply, val_main_v50_apply,
    val_main_cst_12_apply, val_main_v49_apply, val_main_v48_apply, val_main_call1_v4_apply, val_main_call1_v3_apply,
    val_main_cst_11_apply, val_main_call1_v2_apply, val_main_call1_v1_apply, val_main_call1_v0_apply,
    val_main_cst_10_apply, val_main_v47_apply, val_main_v46_apply, val_main_cst_9_apply, val_main_v45_apply,
    val_main_v36_apply, val_main_v34_apply, val_main_v32_apply, e4, val_main_v35_apply, val_main_v33_apply, e5,
    simPos_apply, simPos_apply]
  rfl

/-- The smoothed rank within the class, at (c, i, j). -/
theorem rkPos_apply (x0 : (⟨S512x128, .f32⟩ : BufTy).Contents (Elt Ideal)) (c : Fin 64) (i j : Fin 8) :
    val_main_v59 (F := Ideal) x0 (ix3 c i j) = rkPos (matOf x0) c i j := by
  rw [val_main_v59_apply, val_main_v58_apply, val_main_cst_15_apply, val_main_v57_apply, val_main_cst_14_apply]
  unfold rkPos
  show (Ideal.ofBits .f32 0x00000000#32 + ∑ k : Fin 8, val_main_v56 (F := Ideal) x0 (idx_main_v57 (ix3 c i j) k))
      + Ideal.ofBits .f32 0x3F800000#32 = _
  rw [Ideal.ofBits_zero_f32, zero_add]
  refine congrArg (· + _) (Finset.sum_congr rfl fun k _ => ?_)
  have e57 : idx_main_v57 (ix3 c i j) k = ix4 c i j k :=
    funext fun a => by match a with | ⟨0, _⟩ => rfl | ⟨1, _⟩ => rfl | ⟨2, _⟩ => rfl | ⟨3, _⟩ => rfl
  have e55 : idx_main_v54 (idx_main_v55 (ix4 c i j k)) = ix2 j k :=
    funext fun a => by match a with | ⟨0, _⟩ => rfl | ⟨1, _⟩ => rfl
  rw [e57, val_main_v56_apply, sig8_apply, val_main_v55_apply, val_main_v54_apply, e55, mask8_apply]
  rfl

end Cert.RefValue

end
-- ==== Proof.RefValueAll.lean ====
/-
  The reference's ranking over the whole batch, read one operation at a time.

  The similarity matrix is the product of the input with its transpose; the rank-3 array of differences has
  sim i k - sim i j at (i, j, k); the sigmoid is applied entry by entry, the mask multiplies by [j ≠ k], and the
  sum over the last axis plus one is the smoothed rank of column j in row i.
-/
import proofs.«176333_j50379966382605_2_alg».proof.Proof.RefValueBase

noncomputable section

namespace Cert.RefValue

open Cert.ReferenceIdeal Cert.ReferenceIdeal.Gen Cert.ReferenceIdeal.Read Idealize.ShloMosaic Idealize.ShloMosaic.ValueIdx Cert.ApSpec

/-- The similarity matrix at (i, k): the inner product of rows i and k. -/
theorem sim_apply (x0 : (⟨S512x128, .f32⟩ : BufTy).Contents (Elt Ideal)) (i k : Fin 512) :
    val_main_v1 (F := Ideal) x0 (ix2 i k) = sim (matOf x0) i k := by
  rw [val_main_v1_apply]
  unfold sim
  refine Finset.sum_congr rfl fun d _ => ?_
  rw [val_main_v0_apply]
  have e1 : lidx_main_v1 (ix2 i k) d = ix2 i d :=
    funext fun a => by match a with | ⟨0, _⟩ => rfl | ⟨1, _⟩ => rfl
  have e2 : idx_main_v0 (ridx_main_v1 (ix2 i k) d) = ix2 k d :=
    funext fun a => by match a with | ⟨0, _⟩ => rfl | ⟨1, _⟩ => rfl
  rw [e1, e2]
  rfl

/-- The sigmoid array at (i, j, k): the clipped sigmoid of sim i k - sim i j. -/
theorem sig512_apply (x0 : (⟨S512x128, .f32⟩ : BufTy).Contents (Elt Ideal)) (i j k : Fin 512) :
    val_main_v23 (F := Ideal) x0 (ix3 i j k) = tsig (sim (matOf x0) i k - sim (matOf x0) i j) := by
  have e4 : idx_main_v2 (idx_main_v4 (ix3 i j k)) = ix2 i k :=
    funext fun a => by match a with | ⟨0, _⟩ => rfl | ⟨1, _⟩ => rfl
  have e5 : idx_main_v3 (idx_main_v5 (ix3 i j k)) = ix2 i j :=
    funext fun a => by match a with | ⟨0, _⟩ => rfl | ⟨1, _⟩ => rfl
  rw [val_main_v23_apply, val_main_v22_apply, val_main_cst_4_apply, val_main_v21_apply, val_main_v20_apply,
    val_main_cst_3_apply, val_main_v19_apply, val_main_v18_apply, val_main_call0_v4_apply, val_main_call0_v3_apply,
    val_main_cst_2_apply, val_main_call0_v2_apply, val_main_call0_v1_apply, val_main_call0_v0_apply,
    val_main_cst_1_apply, val_main_v17_apply, val_main_v16_apply, val_main_cst_0_apply, val_main_v15_apply,
    val_main_v6_apply, val_main_v4_apply, val_main_v2_apply, e4, val_main_v5_apply, val_main_v3_apply, e5,
    sim_apply, sim_apply]
  rfl

/-- The smoothed rank among all rows, at (i, j). -/
theorem rkAll_apply (x0 : (⟨S512x128, .f32⟩ : BufTy).Contents (Elt Ideal)) (i j : Fin 512) :
    val_main_v29 (F := Ideal) x0 (ix2 i j) = rkAll (matOf x0) i j := by
  rw [val_main_v29_apply, val_main_v28_apply, val_main_cst_6_apply, val_main_v27_apply, val_main_cst_5_apply]
  unfold rkAll
  show (Ideal.ofBits .f32 0x00000000#32 + ∑ k : Fin 512, val_main_v26 (F := Ideal) x0 (idx_main_v27 (ix2 i j) k))
      + Ideal.ofBits .f32 0x3F800000#32 = _
  rw [Ideal.ofBits_zero_f32, zero_add]
  refine congrArg (· + _) (Finset.sum_congr rfl fun k _ => ?_)
  have e27 : idx_main_v27 (ix2 i j) k = ix3 i j k :=
    funext fun a => by match a with | ⟨0, _⟩ => rfl | ⟨1, _⟩ => rfl | ⟨2, _⟩ => rfl
  have e25 : idx_main_v24 (idx_main_v25 (ix3 i j k)) = ix2 j k :=
    funext fun a => by match a with | ⟨0, _⟩ => rfl | ⟨1, _⟩ => rfl
  rw [e27, val_main_v26_apply, sig512_apply, val_main_v25_apply, val_main_v24_apply, e25, mask512_apply]
  rfl

end Cert.RefValue

end
-- ==== Proof.LibGatherDiag.lean ====
/-
  A gather of the diagonal blocks of a four-axis array, read at an index.

  `x[idx, :, idx', :]` of an array `x : [N, B, M, C]` at two integer vectors of `R` entries lowers to a gather
  whose start indices are the two vectors laid side by side as `[R, 2]`, with axes 0 and 2 of the operand
  collapsed and addressed by the two components of the start index, and axes 1 and 3 offset axes of full width.
  Entry (r, b, c) of the result is `x` at the first component of row `r` on axis 0 and the second on axis 2 —
  each read as a signed integer and clamped into its axis, as every gather start index is — and at `b`, `c` on
  axes 1 and 3.
-/
import Idealize.ShloMosaic.PureOps.ShapeOps
import Idealize.ShloMosaic.Lib.ValueIdx

noncomputable section

namespace Cert.RefValue

open Idealize.ShloMosaic Idealize.ShloMosaic.ValueIdx

variable {α : Type}

/-- Those dimension numbers for an operand `[N, B, M, C]`, start indices `[R, 2]` and a result `[R, B, C]`; their
    conditions `wf` are decided on a program's literal shapes. -/
abbrev diagDims (N B M C R : Nat)
    (wf : GatherDims.WF ⟨4, ![N, B, M, C]⟩ ⟨2, ![R, 2]⟩ ⟨3, ![R, B, C]⟩ [1, 2] [0, 2] [] [0, 2] [] 1 ![1, B, 1, C]) :
    GatherDims ⟨4, ![N, B, M, C]⟩ ⟨2, ![R, 2]⟩ ⟨3, ![R, B, C]⟩ where
  offsetDims := [1, 2]
  collapsedSliceDims := [0, 2]
  operandBatchingDims := []
  startIndicesBatchingDims := []
  startIndexMap := [0, 2]
  indexVectorDim := 1
  sliceSizes := ![1, B, 1, C]
  wf := wf

variable {N B M C R w : Nat}
  (wf : GatherDims.WF ⟨4, ![N, B, M, C]⟩ ⟨2, ![R, 2]⟩ ⟨3, ![R, B, C]⟩ [1, 2] [0, 2] [] [0, 2] [] 1 ![1, B, 1, C])

/-- THE GATHER READ AT `(r, b, c)`: the operand at the two start words of row `r`, read signed and clamped into
    `[0, N − 1]` and `[0, M − 1]`, on axes 0 and 2, and at `b` and `c` on axes 1 and 3. -/
theorem gather_diag_apply (hN : 0 < N) (hM : 0 < M) (x : (⟨4, ![N, B, M, C]⟩ : Shape).Idx → α)
    (idx : IVec ⟨2, ![R, 2]⟩ w) (y : (⟨3, ![R, B, C]⟩ : Shape).Idx) :
    Host.gather (diagDims N B M C R wf) x idx y
      = x (ix4 ⟨min (idx (ix2 (y 0) (0 : Fin 2))).toInt.toNat (N - 1), by omega⟩ (y 1)
               ⟨min (idx (ix2 (y 0) (1 : Fin 2))).toInt.toNat (M - 1), by omega⟩ (y 2)) := by
  unfold Host.gather
  congr 1
  funext a
  refine Fin.ext ?_
  show (diagDims N B M C R wf).start y idx a + (diagDims N B M C R wf).batchCoord y a
      + (diagDims N B M C R wf).offCoord y a = _
  rw [GatherDims.batchCoord_eq_zero _ _ _ List.not_mem_nil]
  have m0 : (0 : Fin 4) ∈ ([0, 2] : List (Fin 4)) := by simp
  have m2 : (2 : Fin 4) ∈ ([0, 2] : List (Fin 4)) := by simp
  have m1 : (1 : Fin 4) ∉ ([0, 2] : List (Fin 4)) := by decide
  have m3 : (3 : Fin 4) ∉ ([0, 2] : List (Fin 4)) := by decide
  match a with
  | ⟨0, h0⟩ =>
    rw [GatherDims.offCoord_eq_zero _ _ _ (fun h => ((GatherDims.mem_sKept _ _).mp h).1
      (show (⟨0, h0⟩ : Fin 4) ∈ ([0, 2] : List (Fin 4)) from m0))]
    simp only [Nat.add_zero]
    unfold GatherDims.start
    split
    · rename_i ha
      have hsi : (diagDims N B M C R wf).siIdx y ⟨List.idxOf (⟨0, h0⟩ : Fin 4) (diagDims N B M C R wf).startIndexMap,
          List.idxOf_lt_length_iff.2 ha⟩ = ix2 (y 0) (0 : Fin 2) := by
        funext b; refine Fin.ext ?_
        match b with
        | ⟨0, _⟩ => rfl
        | ⟨1, _⟩ => rfl
      rw [hsi]; rfl
    · rename_i ha; exact absurd (show (⟨0, h0⟩ : Fin 4) ∈ ([0, 2] : List (Fin 4)) from m0) ha
  | ⟨1, h1⟩ =>
    unfold GatherDims.start
    split
    · rename_i ha; exact absurd (show (1 : Fin 4) ∈ ([0, 2] : List (Fin 4)) from ha) m1
    · simp only [Nat.zero_add]
      unfold GatherDims.offCoord
      have hk : (⟨1, h1⟩ : Fin 4) ∈ (diagDims N B M C R wf).sKept :=
        (GatherDims.mem_sKept _ _).mpr ⟨fun h => m1 h, List.not_mem_nil⟩
      rw [dif_pos hk]
      rfl
  | ⟨2, h2⟩ =>
    rw [GatherDims.offCoord_eq_zero _ _ _ (fun h => ((GatherDims.mem_sKept _ _).mp h).1
      (show (⟨2, h2⟩ : Fin 4) ∈ ([0, 2] : List (Fin 4)) from m2))]
    simp only [Nat.add_zero]
    unfold GatherDims.start
    split
    · rename_i ha
      have hsi : (diagDims N B M C R wf).siIdx y ⟨List.idxOf (⟨2, h2⟩ : Fin 4) (diagDims N B M C R wf).startIndexMap,
          List.idxOf_lt_length_iff.2 ha⟩ = ix2 (y 0) (1 : Fin 2) := by
        funext b; refine Fin.ext ?_
        match b with
        | ⟨0, _⟩ => rfl
        | ⟨1, _⟩ => rfl
      rw [hsi]; rfl
    · rename_i ha; exact absurd (show (⟨2, h2⟩ : Fin 4) ∈ ([0, 2] : List (Fin 4)) from m2) ha
  | ⟨3, h3⟩ =>
    unfold GatherDims.start
    split
    · rename_i ha; exact absurd (show (3 : Fin 4) ∈ ([0, 2] : List (Fin 4)) from ha) m3
    · simp only [Nat.zero_add]
      unfold GatherDims.offCoord
      have hk : (⟨3, h3⟩ : Fin 4) ∈ (diagDims N B M C R wf).sKept :=
        (GatherDims.mem_sKept _ _).mpr ⟨fun h => m3 h, List.not_mem_nil⟩
      rw [dif_pos hk]
      rfl

end Cert.RefValue

end
-- ==== Proof.LibConcat2.lean ====
/-
  Two matrices joined along one axis, read at an index given by coordinates; and a sum over a range cut in two.

  Two pieces [R, C₁] and [R, C₂] laid side by side along axis 1 read, at (r, g), the first piece at (r, g) when
  column g is one of its own, and the second at (r, g − C₁) otherwise. Two pieces [R₁, C] and [R₂, C] stacked
  along axis 0 read, at (r, g), the first at (r, g) when row r is one of its own, and the second at (r − R₁, g)
  otherwise. The position inside the piece is given as a coordinate of its own with the equation that ties it to
  the joined coordinate, so that no subtraction appears in a statement.

  A sum over a + b positions is the sum over the first a plus the sum over the last b.
-/
import Idealize.ShloMosaic.Lib.Pipeline.Value
import Idealize.ShloMosaic.Lib.ValueIdx

open scoped BigOperators

namespace Cert.LibConcat2

open Idealize.ShloMosaic Idealize.ShloMosaic.ValueIdx

variable {α : Type}

/-- Side by side, a column of the first piece. -/
theorem cols_left {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₁) (hg : g'.val = g.val) :
    concatenate ⟨2, ![R, C]⟩ 1 [⟨⟨2, ![R, C₁]⟩, a⟩, ⟨⟨2, ![R, C₂]⟩, b⟩] h (ix2 r g) = a (ix2 r g') :=
  concatenate_pair_apply_left 1 a b h (ix2 r g) rfl (ix2 r g') fun ax => by
    match ax with
    | ⟨0, _⟩ => rfl
    | ⟨1, _⟩ => exact hg

/-- Side by side, a column of the second piece. -/
theorem cols_right {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₂) (hg : g'.val + C₁ = g.val) :
    concatenate ⟨2, ![R, C]⟩ 1 [⟨⟨2, ![R, C₁]⟩, a⟩, ⟨⟨2, ![R, C₂]⟩, b⟩] h (ix2 r g) = b (ix2 r g') :=
  concatenate_pair_apply_right 1 a b h (ix2 r g) rfl rfl (ix2 r g')
    (fun ax hne => by
      match ax with
      | ⟨0, _⟩ => rfl
      | ⟨1, _⟩ => exact absurd rfl hne)
    hg

/-- Stacked, a row of the first piece. -/
theorem rows_left {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₁) (hr : r'.val = r.val) (g : Fin C) :
    concatenate ⟨2, ![R, C]⟩ 0 [⟨⟨2, ![R₁, C]⟩, a⟩, ⟨⟨2, ![R₂, C]⟩, b⟩] h (ix2 r g) = a (ix2 r' g) :=
  concatenate_pair_apply_left 0 a b h (ix2 r g) rfl (ix2 r' g) fun ax => by
    match ax with
    | ⟨0, _⟩ => exact hr
    | ⟨1, _⟩ => rfl

/-- Stacked, a row of the second piece. -/
theorem rows_right {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₂) (hr : r'.val + R₁ = r.val) (g : Fin C) :
    concatenate ⟨2, ![R, C]⟩ 0 [⟨⟨2, ![R₁, C]⟩, a⟩, ⟨⟨2, ![R₂, C]⟩, b⟩] h (ix2 r g) = b (ix2 r' g) :=
  concatenate_pair_apply_right 0 a b h (ix2 r g) rfl rfl (ix2 r' g)
    (fun ax hne => by
      match ax with
      | ⟨0, _⟩ => exact absurd rfl hne
      | ⟨1, _⟩ => rfl)
    hr

/-- A sum over a + b positions, cut after the first a. -/
theorem sum_two_blocks {M : Type*} [AddCommMonoid M] {a b n : ℕ} (hn : a + b = n) (f : Fin n → M) :
    ∑ l : Fin n, f l
      = ∑ l : Fin a, f ⟨l.val, by have := l.isLt; omega⟩ + ∑ l : Fin b, f ⟨a + l.val, by have := l.isLt; omega⟩ := by
  subst hn
  exact Fin.sum_univ_add f

end Cert.LibConcat2
-- ==== Proof.LibSelectLt.lean ====
/-
  A select on a signed comparison of two small words is the `if` on the numbers.

  A 32-bit word `BitVec.ofNat 32 a` with a < 2^31 has its top bit clear, so read as a signed integer it is the number
  `a` itself. For two such words the signed "less than" is therefore the order of the natural numbers, and a
  `Scalar.select` on its bit chooses its first operand exactly when a < k. This is how a mask built from a counter
  (an iota along an axis) and a threshold constant reads at an index.
-/
import Idealize.ShloMosaic.PureOps
import Idealize.ShloMosaic.Lib.Affine

namespace Idealize.ShloMosaic.SelectLt

open Idealize.ShloMosaic

/-- The signed comparison's bit: for a, k < 2^31 the words compare as the numbers do. -/
theorem cmpi_slt_ofNat_iff (a k : Nat) (ha : a < 2 ^ 31) (hk : k < 2 ^ 31) :
    IntOp.cmpi .slt (BitVec.ofNat 32 a) (BitVec.ofNat 32 k) = 1#1 ↔ a < k := by
  have e1 := BitVec.toInt_eq_toNat_cond (BitVec.ofNat 32 a)
  have e2 := BitVec.toInt_eq_toNat_cond (BitVec.ofNat 32 k)
  rw [BitVec.toNat_ofNat] at e1 e2
  rw [IntOp.cmpi_slt]
  omega

/-- A select on "word of a is signed-less than word of k" is the `if` on a < k, for a, k < 2^31. -/
theorem select_slt_ofNat {α : Type} (a k : Nat) (ha : a < 2 ^ 31) (hk : k < 2 ^ 31) (A B : α) :
    Scalar.select (IntOp.cmpi .slt (BitVec.ofNat 32 a) (BitVec.ofNat 32 k)) A B = if a < k then A else B := by
  unfold Scalar.select
  exact if_congr (cmpi_slt_ofNat_iff a k ha hk) rfl rfl

end Idealize.ShloMosaic.SelectLt
-- ==== Proof.LibWords.lean ====
/-
  32-bit words of small naturals, and 0/1 words of propositions.

  General facts about the integer operations on 32-bit words, for kernels that compute with lane numbers, row
  numbers and masks: `ind p` is the word 1 when `p` holds and 0 otherwise; the signed minimum and the signed
  "at most" test of the words of two naturals below 2^31 are the minimum and the test of the naturals; a one-bit
  word widened to 32 bits is the 0/1 word of "the bit is set"; the signed maximum of two 0/1 words is the 0/1 word
  of the disjunction, also when the second is first multiplied by a flag word that is 0 or 1.
-/
import Idealize.ShloMosaic.PureOps.Float
import Idealize.ShloMosaic.Lib.Affine
import Mathlib.Tactic

namespace Cert.Words

open Idealize.ShloMosaic

/-- The 0/1 word of a proposition. -/
def ind (p : Prop) [Decidable p] : BitVec 32 := if p then 1#32 else 0#32

/-- Equivalent propositions have the same 0/1 word. -/
theorem ind_congr {p q : Prop} [Decidable p] [Decidable q] (h : p ↔ q) : ind p = ind q := by
  unfold ind; by_cases hp : p
  · rw [if_pos hp, if_pos (h.1 hp)]
  · rw [if_neg hp, if_neg (fun hq => hp (h.2 hq))]

/-- The word of a natural below 2^31 reads, as a signed integer, that natural. -/
theorem toInt_ofNat_small (a : ℕ) (ha : a < 2 ^ 31) : (BitVec.ofNat 32 a).toInt = (a : ℤ) := by
  have hn : (BitVec.ofNat 32 a).toNat = a := by rw [BitVec.toNat_ofNat]; omega
  rw [BitVec.toInt_eq_toNat_of_lt (by rw [hn]; omega), hn]

/-- The signed minimum of two small naturals' words is the word of their minimum. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  by_cases h : a < b
  · have : (BitVec.ofNat 32 a).slt (BitVec.ofNat 32 b) = true := by
      rw [BitVec.slt_iff_toInt_lt, toInt_ofNat_small a ha, toInt_ofNat_small b hb]; exact_mod_cast h
    rw [if_pos this, min_eq_left (le_of_lt h)]
  · have : ¬ (BitVec.ofNat 32 a).slt (BitVec.ofNat 32 b) = true := by
      rw [BitVec.slt_iff_toInt_lt, toInt_ofNat_small a ha, toInt_ofNat_small b hb]; exact_mod_cast h
    rw [if_neg this, min_eq_right (not_lt.1 h)]

/-- The signed "at most" test of two small naturals' words is the test of the naturals. -/
theorem sle_ofNat (a b : ℕ) (ha : a < 2 ^ 31) (hb : b < 2 ^ 31) :
    IntOp.cmpi .sle (BitVec.ofNat 32 a) (BitVec.ofNat 32 b) = 1#1 ↔ a ≤ b := by
  rw [IntOp.cmpi_sle, toInt_ofNat_small a ha, toInt_ofNat_small b hb]; exact_mod_cast Iff.rfl

/-- A one-bit word widened to 32 bits is the 0/1 word of "the bit is set". -/
theorem setWidth_eq_ind (c : BitVec 1) : c.setWidth 32 = ind (c = 1#1) := by
  revert c; decide

/-- The equality test of two small naturals' words, widened: the 0/1 word of the naturals' equality. -/
theorem eq_ofNat (a b : ℕ) (ha : a < 2 ^ 31) (hb : b < 2 ^ 31) :
    (IntOp.cmpi .eq (IntOp.addi (BitVec.ofNat 32 a) 0#32) (BitVec.ofNat 32 b)).setWidth 32 = ind (a = b) := by
  rw [setWidth_eq_ind]
  refine ind_congr ?_
  rw [IntOp.cmpi_eq]
  unfold IntOp.addi
  rw [BitVec.add_zero]
  constructor
  · intro h
    have := congrArg BitVec.toNat h
    rw [BitVec.toNat_ofNat, BitVec.toNat_ofNat] at this
    omega
  · intro h; rw [h]

/-- The larger of two 0/1 words is the 0/1 word of the disjunction. -/
theorem maxsi_ind (P Q : Prop) [Decidable P] [Decidable Q] : IntOp.maxsi (ind P) (ind Q) = ind (P ∨ Q) := by
  unfold ind
  by_cases hP : P <;> by_cases hQ : Q <;> simp only [hP, hQ, if_true, if_false, or_self, or_true, true_or, or_false] <;> decide

/-- ONE ROUND on words: a 0/1 word, raised to the product of another 0/1 word with a flag word that is 0 or 1. -/
theorem round_word (br : BitVec 32) (hbr : br = 0#32 ∨ br = 1#32) (P Q : Prop) [Decidable P] [Decidable Q] :
    IntOp.maxsi (ind P) (IntOp.muli (ind Q) br) = ind (P ∨ (br = 1#32 ∧ Q)) := by
  unfold ind
  rcases hbr with h | h <;> subst h <;> by_cases hP : P <;> by_cases hQ : Q <;>
    simp only [hP, hQ, if_true, if_false, or_self, or_true, true_or, or_false, and_true, and_false, true_and, false_and] <;> decide

end Cert.Words
-- ==== Proof.RefValueGather.lean ====
/-
  The diagonal 8 x 8 blocks of the rank matrix, as the reference gathers them.

  The rank matrix viewed as [64, 8, 64, 8] has entry (8 c + i, 8 c' + j) at (c, i, c', j). The start indices of
  the gather are the class numbers 0 … 63 twice, side by side (the wrap of a negative index never applies: every
  class number is at least 0), all in range, so the clamp is the identity and entry (c, i, j) of the result is the
  rank matrix at (8 c + i, 8 c + j).
-/
import proofs.«176333_j50379966382605_2_alg».proof.Proof.RefValueAll
import proofs.«176333_j50379966382605_2_alg».proof.Proof.LibGatherDiag
import proofs.«176333_j50379966382605_2_alg».proof.Proof.LibConcat2
import proofs.«176333_j50379966382605_2_alg».proof.Proof.LibSelectLt
import proofs.«176333_j50379966382605_2_alg».proof.Proof.LibWords

noncomputable section

namespace Cert.RefValue

open Cert.ReferenceIdeal Cert.ReferenceIdeal.Gen Cert.ReferenceIdeal.Read Idealize.ShloMosaic Idealize.ShloMosaic.ValueIdx Cert.ApSpec

/-- The first index vector: entry c is the word of c. -/
theorem idx66 (c : Fin 64) : val_main_v66 (F := Ideal) (ix1 c) = BitVec.ofNat 32 c.val := by
  rw [val_main_v66_apply, val_main_v63_apply, val_main_v61_apply, val_main_v62_apply, val_main_c_16_apply]
  show Scalar.select (IntOp.cmpi .slt (BitVec.ofNat 32 c.val) (BitVec.ofNat 32 0)) _ _ = _
  rw [SelectLt.select_slt_ofNat c.val 0 (by have := c.isLt; omega) (by norm_num), if_neg (Nat.not_lt_zero _)]

/-- The second index vector: entry c is the word of c. -/
theorem idx71 (c : Fin 64) : val_main_v71 (F := Ideal) (ix1 c) = BitVec.ofNat 32 c.val := by
  rw [val_main_v71_apply, val_main_v68_apply, val_main_v61_apply, val_main_v67_apply, val_main_c_18_apply]
  show Scalar.select (IntOp.cmpi .slt (BitVec.ofNat 32 c.val) (BitVec.ofNat 32 0)) _ _ = _
  rw [SelectLt.select_slt_ofNat c.val 0 (by have := c.isLt; omega) (by norm_num), if_neg (Nat.not_lt_zero _)]

/-- The start indices, first component of row c: the word of c. -/
theorem idx74_0 (c : Fin 64) : val_main_v74 (F := Ideal) (ix2 c (0 : Fin 2)) = BitVec.ofNat 32 c.val := by
  unfold val_main_v74
  refine (Cert.LibConcat2.cols_left (R := 64) (C₁ := 1) (C₂ := 1) (C := 2) _ _ _ c (0 : Fin 2) (0 : Fin 1) rfl).trans ?_
  have e : idx_main_v72 (ix2 c (0 : Fin 1)) = ix1 c := funext fun a => by match a with | ⟨0, _⟩ => rfl
  rw [val_main_v72_apply, e, idx66]

/-- The start indices, second component of row c: the word of c. -/
theorem idx74_1 (c : Fin 64) : val_main_v74 (F := Ideal) (ix2 c (1 : Fin 2)) = BitVec.ofNat 32 c.val := by
  unfold val_main_v74
  refine (Cert.LibConcat2.cols_right (R := 64) (C₁ := 1) (C₂ := 1) (C := 2) _ _ _ c (1 : Fin 2) (0 : Fin 1) rfl).trans ?_
  have e : idx_main_v73 (ix2 c (0 : Fin 1)) = ix1 c := funext fun a => by match a with | ⟨0, _⟩ => rfl
  rw [val_main_v73_apply, e, idx71]

/-- A class number's word, read as a signed integer and clamped into [0, 63], is the class number. -/
theorem clamp64 (c : Fin 64) : min (BitVec.ofNat 32 c.val).toInt.toNat (64 - 1) = c.val := by
  have hc := c.isLt
  rw [Cert.Words.toInt_ofNat_small c.val (by omega), Int.toNat_natCast]
  omega

/-- The gather at start indices that hold the class numbers twice: entry (c, i, j) is the operand at (c, i, c, j). -/
theorem gather64 (x : (⟨S64x8x64x8, .f32⟩ : BufTy).Contents (Elt Ideal)) (idx : (⟨S64x2, .i32⟩ : BufTy).Contents (Elt Ideal))
    (c : Fin 64) (i j : Fin 8) (h0 : idx (ix2 c (0 : Fin 2)) = BitVec.ofNat 32 c.val)
    (h1 : idx (ix2 c (1 : Fin 2)) = BitVec.ofNat 32 c.val) :
    Host.gather gather_S64x8x64x8_S64x2_S64x8x8_12_02_n_n_02_1_1818 x idx (ix3 c i j) = x (ix4 c i c j) := by
  have hG : gather_S64x8x64x8_S64x2_S64x8x8_12_02_n_n_02_1_1818
      = diagDims 64 8 64 8 64 Cert.ReferenceIdeal.Gen.gather_S64x8x64x8_S64x2_S64x8x8_12_02_n_n_02_1_1818_wf := rfl
  rw [hG]
  refine (gather_diag_apply _ (by norm_num) (by norm_num) x idx (ix3 c i j)).trans ?_
  refine congrArg x (funext fun a => Fin.ext ?_)
  match a with
  | ⟨0, _⟩ =>
    show min (idx (ix2 c (0 : Fin 2))).toInt.toNat (64 - 1) = c.val
    rw [h0]; exact clamp64 c
  | ⟨1, _⟩ => rfl
  | ⟨2, _⟩ =>
    show min (idx (ix2 c (1 : Fin 2))).toInt.toNat (64 - 1) = c.val
    rw [h1]; exact clamp64 c
  | ⟨3, _⟩ => rfl

/-- The rank matrix viewed as [64, 8, 64, 8]: entry (c, i, c', j) is entry (8 c + i, 8 c' + j). -/
theorem idx60 (c c' : Fin 64) (i j : Fin 8) : idx_main_v60 (ix4 c i c' j) = ix2 (row c i) (row c' j) :=
  funext fun a => Fin.ext (by
    have hc' := c'.isLt
    have hj := j.isLt
    match a with
    | ⟨0, _⟩ =>
      show (((c.val * 8 + i.val) * 64 + c'.val) * 8 + j.val) / 512 = 8 * c.val + i.val; omega
    | ⟨1, _⟩ =>
      show (((c.val * 8 + i.val) * 64 + c'.val) * 8 + j.val) % 512 = 8 * c'.val + j.val; omega)

/-- The gathered diagonal blocks at (c, i, j): the smoothed rank among all rows at (8 c + i, 8 c + j). -/
theorem diag_apply (x0 : (⟨S512x128, .f32⟩ : BufTy).Contents (Elt Ideal)) (c : Fin 64) (i j : Fin 8) :
    val_main_v75 (F := Ideal) x0 (ix3 c i j) = rkAll (matOf x0) (row c i) (row c j) := by
  unfold val_main_v75
  rw [gather64 _ _ c i j (idx74_0 c) (idx74_1 c), val_main_v60_apply, idx60, rkAll_apply]

end Cert.RefValue

end
-- ==== Proof.RefValue.lean ====
/-
  The reference's result, read one operation at a time, is `ApSpec.result` of the input matrix.

  Entry (c, i, j) of the quotient array is the ratio of the rank within the class to the rank among all rows at
  the same pair of rows; the sum over all of its entries is the sum over classes, rows and columns; and the three
  scalar operations that follow are `ApSpec.finish`.
-/
import proofs.«176333_j50379966382605_2_alg».proof.Proof.RefValuePos
import proofs.«176333_j50379966382605_2_alg».proof.Proof.RefValueGather

noncomputable section

namespace Cert.RefValue

open Cert.ReferenceIdeal Cert.ReferenceIdeal.Gen Cert.ReferenceIdeal.Read Idealize.ShloMosaic Idealize.ShloMosaic.ValueIdx Cert.ApSpec
open Idealize.ShloMosaic.TcCoe Idealize.SL.Sem Idealize.ShloMosaic.StableHlo

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The quotient array at (c, i, j): the ratio of the two ranks. -/
theorem ratio_apply (x0 : (⟨S512x128, .f32⟩ : BufTy).Contents (Elt Ideal)) (c : Fin 64) (i j : Fin 8) :
    val_main_v76 (F := Ideal) x0 (ix3 c i j) = ratio (matOf x0) c i j := by
  rw [val_main_v76_apply, rkPos_apply, diag_apply]
  rfl

/-- The sum of the quotient array over all of its entries: the total over classes, rows and columns. -/
theorem total_apply (x0 : (⟨S512x128, .f32⟩ : BufTy).Contents (Elt Ideal)) (i : S_.Idx) :
    val_main_v77 (F := Ideal) x0 i = total (matOf x0) := by
  rw [val_main_v77_apply, val_main_cst_20_apply]
  show Ideal.ofBits .f32 0x00000000#32 + ∑ j : S64x8x8.Idx, val_main_v76 (F := Ideal) x0 j = _
  rw [Ideal.ofBits_zero_f32, zero_add]
  refine (sum_idx3 (n0 := 64) (n1 := 8) (n2 := 8) _).trans ?_
  unfold total classSum
  exact Finset.sum_congr rfl fun c _ => Finset.sum_congr rfl fun i _ => Finset.sum_congr rfl fun j _ =>
    ratio_apply x0 c i j

/-- The last stage: the result of the specification. -/
theorem result_apply (x0 : (⟨S512x128, .f32⟩ : BufTy).Contents (Elt Ideal)) (i : S_.Idx) :
    val_main_v80 (F := Ideal) x0 i = result (matOf x0) := by
  rw [val_main_v80_apply, val_main_cst_23_apply, val_main_v79_apply, val_main_cst_22_apply, val_main_v78_apply,
    val_main_cst_21_apply, total_apply]
  rfl

/-- THE REFERENCE'S RESULT: at every index of the scalar result buffer, the specification's result of the input
    matrix the launch memory holds. -/
theorem res_out0_apply (m : (ℓ : Loc nD τ sig) → Buf (Elt Ideal) ℓ) (c : Dev nD) (j : S_.Idx) :
    Cert.ReferenceIdeal.Value.res_out0 (F := Ideal) m c j
      = result (matOf (m ((c.tc : Thread nD τ).loc main_arg0))) := by
  show Cert.ReferenceIdeal.Value.res_main_v80 m c j = _
  rw [val_main_v80_eq]
  exact result_apply _ j

/-- The same as an equation of buffers. -/
theorem res_out0_eq (m : (ℓ : Loc nD τ sig) → Buf (Elt Ideal) ℓ) (c : Dev nD) :
    Cert.ReferenceIdeal.Value.res_out0 (F := Ideal) m c
      = fun _ => result (matOf (m ((c.tc : Thread nD τ).loc main_arg0))) :=
  funext fun j => res_out0_apply m c j

/-- The same for a matrix `P` that the input buffer is known to hold. -/
theorem res_out0_eq_of (m : (ℓ : Loc nD τ sig) → Buf (Elt Ideal) ℓ) (c : Dev nD) (P : Fin 512 → Fin 128 → EReal)
    (hP : ∀ (r : Fin 512) (d : Fin 128), m ((c.tc : Thread nD τ).loc main_arg0) (ix2 r d) = P r d) :
    Cert.ReferenceIdeal.Value.res_out0 (F := Ideal) m c = fun _ => result P := by
  have h : matOf (m ((c.tc : Thread nD τ).loc main_arg0)) = P := funext fun r => funext fun d => hP r d
  rw [res_out0_eq, h]

end Cert.RefValue

end
-- ==== Proof.lean ====
/-
  A smoothed average-precision loss over a 512 x 128 matrix whose rows come in 64 classes of 8.

  With `sim i k` the inner product of rows `i` and `k`, and `tsig` the sigmoid at temperature 0.01
  with its exponent clipped to [-50, 50], the smoothed rank of column `j` in row `i` is
  `1 + sum_k tsig (sim i k - sim i j) [j ≠ k]`, taken once over all 512 rows (`rkAll`) and once over
  the 8 rows of the class (`rkPos`); the loss is `1 - ((sum of rkPos / rkAll over every class's
  8 x 8 diagonal block) / 8) / 512` (`ApSpec.result`).

  The reference forms the whole 512 x 512 x 512 array of sigmoids, sums it to the 512 x 512 matrix
  of ranks, and gathers the 64 diagonal blocks out of it. The kernel visits the classes one by one:
  at class `c` it multiplies the class's 8 rows with the whole matrix and with themselves, forms
  only rows `8c .. 8c+7` of the sigmoids, and adds the class's 64 ratios to a running total kept in a
  scratch cell, cleared at the first class; seven scalar host lines finish. Entry by entry the two
  compute the same extended reals — a matrix product into a zero accumulator against the host's
  contraction, `0 - x` against `-x`, a 0/1 mask built from integer comparisons on either side —
  and they differ in how one sum is grouped: all `64 * 8 * 8` ratios at once, or class by class and
  then row by row. Addition on the extended reals is commutative and associative at infinities too,
  so the two groupings agree and no finiteness of the input is used.

  The kernel reads its one input array through two windows. Each window holds half of the array
  while the kernel runs; the halves are joined again for the host lines, which write neither the
  input nor the kernel's result.
-/
import proofs.«176333_j50379966382605_2_alg».proof.Defs
import proofs.«176333_j50379966382605_2_alg».proof.Proof.Gen.Pre_finite_inputs
import proofs.«176333_j50379966382605_2_alg».proof.Proof.KnLaunch
import proofs.«176333_j50379966382605_2_alg».proof.Proof.KiResult
import proofs.«176333_j50379966382605_2_alg».proof.Proof.KiTotal
import proofs.«176333_j50379966382605_2_alg».proof.Proof.RefValue

noncomputable section

namespace Cert.Proof

open Idealize.ShloMosaic Idealize.ShloMosaic.TcCoe Idealize.SL.Sem

/-- The word-level program runs and leaves the input array as it was. -/
theorem frame_p : Cert.frame_Kernel := fun m ρ _ =>
  (θ_run (Cert.Kernel.defs (F := Bits)) _ _).mono (fun _ h c => (h c).2) (Cert.Kernel.Hand.run_main (F := Bits) m ρ)

/-- So does the program read over the extended reals. -/
theorem frame_pi : Cert.frame_KernelIdeal := fun m ρ _ =>
  (θ_run (Cert.KernelIdeal.defs (F := Ideal)) _ _).mono (fun _ h c => (h c).2) (Cert.KernelIdeal.Hand.run_main (F := Ideal) m ρ)

/-- The reference is host operations only: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- No operation of the kernel was rewritten for the reading over the extended reals. -/
theorem preserves : Cert.preserves_Kernel_KernelIdeal := trivial

/-- The kernel's final scalar: the running total after all 64 classes is the sum of every class's
    ratios, and the host lines take it to the loss. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.Wfin (F := Ideal) m c (Proc.devRef .tc Cert.KernelIdeal.main_v4)
      = fun _ => Cert.ApSpec.result (Cert.KernelIdeal.Hand.matOf c (m ((c.tc : Thread Cert.KernelIdeal.nD Cert.KernelIdeal.τ).loc Cert.KernelIdeal.main_arg0))) := by
  funext j
  rw [Cert.KernelIdeal.Hand.Wfin_v4_apply, Cert.KernelIdeal.Hand.final_total]
  rfl

/-- Both programs, run from memories that agree on the input, end with the loss of that input. -/
theorem algebraic : Cert.algebraic_KernelIdeal_ReferenceIdeal := by
  intro m ρ m' ρ' _ hagree
  refine ⟨fun c => fun _ => Cert.ApSpec.result (Cert.KernelIdeal.Hand.matOf c (m ((c.tc : Thread Cert.KernelIdeal.nD Cert.KernelIdeal.τ).loc Cert.KernelIdeal.main_arg0))), ?_, ?_⟩
  · exact (θ_run (Cert.KernelIdeal.defs (F := Ideal)) _ _).mono (fun _ h c => ⟨(h c).1.trans (kernel_result m c), (h c).2⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [show Cert.ReferenceIdeal.Value.res_main_v80 m' c = Cert.ReferenceIdeal.Value.res_out0 m' c from rfl,
      Cert.RefValue.res_out0_eq, hagree c]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
